-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S_ : Shape := ⟨0, ![]⟩
abbrev S16x4096 : Shape := ⟨2, ![16, 4096]⟩
abbrev S16x4096x1 : Shape := ⟨3, ![16, 4096, 1]⟩
abbrev S16x4096x5 : Shape := ⟨3, ![16, 4096, 5]⟩
abbrev S16x5x4096 : Shape := ⟨3, ![16, 5, 4096]⟩
abbrev S16x1x128 : Shape := ⟨3, ![16, 1, 128]⟩
abbrev S1x512x5 : Shape := ⟨3, ![1, 512, 5]⟩
abbrev S1x5x4096 : Shape := ⟨3, ![1, 5, 4096]⟩
abbrev S1x1x128 : Shape := ⟨3, ![1, 1, 128]⟩
abbrev S1x4096 : Shape := ⟨2, ![1, 4096]⟩
abbrev S1x1 : Shape := ⟨2, ![1, 1]⟩
abbrev S512x5 : Shape := ⟨2, ![512, 5]⟩
abbrev S5x4096 : Shape := ⟨2, ![5, 4096]⟩
abbrev S512x4096 : Shape := ⟨2, ![512, 4096]⟩
abbrev S512 : Shape := ⟨1, ![512]⟩
abbrev S512x1 : Shape := ⟨2, ![512, 1]⟩
abbrev S1 : Shape := ⟨1, ![1]⟩
abbrev S4096 : Shape := ⟨1, ![4096]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 39
  | .vmem => 10
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S_, .f32⟩
  | .hbm, ⟨11, _⟩ => ⟨S16x4096, .f32⟩
  | .hbm, ⟨12, _⟩ => ⟨S_, .f32⟩
  | .hbm, ⟨13, _⟩ => ⟨S16x4096x3, .f32⟩
  | .hbm, ⟨14, _⟩ => ⟨S16x4096x3, .f32⟩
  | .hbm, ⟨15, _⟩ => ⟨S16x4096x1, .f32⟩
  | .hbm, ⟨16, _⟩ => ⟨S16x4096x1, .f32⟩
  | .hbm, ⟨17, _⟩ => ⟨S16x4096x5, .f32⟩
  | .hbm, ⟨18, _⟩ => ⟨S16x4096x1, .f32⟩
  | .hbm, ⟨19, _⟩ => ⟨S16x4096x1, .f32⟩
  | .hbm, ⟨20, _⟩ => ⟨S16x4096x5, .f32⟩
  | .hbm, ⟨21, _⟩ => ⟨S16x5x4096, .f32⟩
  | .hbm, ⟨22, _⟩ => ⟨S16x1x128, .f32⟩
  | .hbm, ⟨23, _⟩ => ⟨S16x1x128, .f32⟩
  | .hbm, ⟨24, _⟩ => ⟨S16x1x1, .f32⟩
  | .hbm, ⟨25, _⟩ => ⟨S16, .f32⟩
  | .hbm, ⟨26, _⟩ => ⟨S_, .f32⟩
  | .hbm, ⟨27, _⟩ => ⟨S_, .f32⟩
  | .hbm, ⟨28, _⟩ => ⟨S16x1x1, .f32⟩
  | .hbm, ⟨29, _⟩ => ⟨S16, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1x512x5, .f32⟩
  | .local _ .vmem, ⟨1, _⟩ => ⟨S1x512x5, .f32⟩
  | .local _ .vmem, ⟨2, _⟩ => ⟨S1x5x4096, .f32⟩
  | .local _ .vmem, ⟨3, _⟩ => ⟨S1x5x4096, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x4096, .f32⟩
  | .local _ .vmem, ⟨9, _⟩ => ⟨S1x1, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_17 : BitVec 32 := 0#32
  let v26 : BitVec 1 := Scalar.cmpi .ne v25 c0_i32_17
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S16x4096x3_S16x4096_d2 : S16x4096x3.ReducesTo [2] S16x4096
  h_S_ : 0 < S_.numel
  bcast_S_S16x4096 : S_.BroadcastsInDim S16x4096 (![] : Fin 0 → Fin S16x4096.rank)
  bcast_S_S16x4096x3 : S_.BroadcastsInDim S16x4096x3 (![] : Fin 0 → Fin S16x4096x3.rank)
  bcast_S16x4096_S16x4096x1_0_1 : S16x4096.BroadcastsInDim S16x4096x1 (![0, 1] : Fin 2 → Fin S16x4096x1.rank)
  concatenates_S16x4096x3_S16x4096x1_S16x4096x1_S16x4096x5_d2 : Shape.Concatenates [S16x4096x3, S16x4096x1, S16x4096x1] S16x4096x5 2
  transposes_S16x4096x5_S16x5x4096_0_2_1 : S16x4096x5.Transposes [0, 2, 1] S16x5x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x512x5_S1x512x5_0_0_0 : ∀ a, (![0, 0, 0] : Fin 3 → Nat) a + S1x512x5.size a ≤ S1x512x5.size a
  h_S1x512x5 : 0 < S1x512x5.numel
  shapeCasts_S1x512x5_S512x5 : S1x512x5.ShapeCasts S512x5
  inb_S1x5x4096_S1x5x4096_0_0_0 : ∀ a, (![0, 0, 0] : Fin 3 → Nat) a + S1x5x4096.size a ≤ S1x5x4096.size a
  h_S1x5x4096 : 0 < S1x5x4096.numel
  shapeCasts_S1x5x4096_S5x4096 : S1x5x4096.ShapeCasts S5x4096
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  reduces_S512x4096_S4096 : S512x4096.Reduces [0] S4096
  shapeCasts_S4096_S1x4096 : S4096.ShapeCasts S1x4096
  reduces_S1x4096_S1 : S1x4096.Reduces [1] S1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S16x1x128_S16x1x1_0_0_0 : S16x1x128.Slices ![0, 0, 0] S16x1x1
  shapeCasts_S16x1x1_S16 : S16x1x1.ShapeCasts S16
  reducesTo_S16_S_d0 : S16.ReducesTo [0] S_
  dot_S512x5_S5x4096_S512x4096_1_0_0_1_n_n_wf : DotDims.WF S512x5 S5x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x5.size a ≤ S16x4096x5.size a
  hwx0_0 : ∀ i : grid0.Coords, EltTy.bits .f32 = 32 ∨ (Rect.block (s := S16x4096x5) S1x512x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x4096.size a ≤ S16x5x4096.size a
  hwx0_1 : ∀ i : grid0.Coords, EltTy.bits .f32 = 32 ∨ (Rect.block (s := S16x5x4096) S1x5x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)

variable [Facts₀]

def dot_S512x5_S5x4096_S512x4096_1_0_0_1_n_n : DotDims S512x5 S5x4096 S512x4096 where
  lhsContracting := [1]
  rhsContracting := [0]
  lhsNonContracting := [0]
  rhsNonContracting := [1]
  lhsBatch := []
  rhsBatch := []
  wf := dot_S512x5_S5x4096_S512x4096_1_0_0_1_n_n_wf

abbrev win0_0 : Pipeline.Window sig grid0 :=
  Pipeline.Window.ofSpec (Memref.whole main_v10) S1x512x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x5x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S_d0_1 : S16x4096.ReducesTo [0, 1] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.KB.Base.lean ====
/-
  The frame of the program around its grid of 16 × 8 points: what every buffer holds when the grid is entered,
  that the host operations after it leave the grid's arrays and the argument arrays alone, the block each grid point
  reads, the two conditions of the body (first tile of a cloud, last tile of a cloud) decided over the grid, and where
  the two result windows are written (only at a cloud's last tile).
-/
import proofs.«166173_j25563645346662_2_alg».proof.Proof.Gen.Kernel.Launch
import proofs.«166173_j25563645346662_2_alg».proof.Proof.Gen.Kernel.Skeleton
import proofs.«166173_j25563645346662_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one grid: host operations, the grid, host operations -/

/-- What each buffer of core `c` holds when the grid is entered: the launch memory after the host operations that
    build the two augmented coordinate arrays. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the grid, the grid, and then the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the grid touch only buffers that outlive it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the four arrays the grid reads or writes. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the grid writes an argument array, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- and none after it does: both end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks the grid points read -/

/-- Block `t` of array `w`, read off the array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first cloud's block is in its buffer at every grid point: it is fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second cloud's block is in its buffer at every grid point: fetched when the cloud changes, and the body leaves
    it in place in between. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run of the whole program that names every buffer's final contents, the argument arrays end as launched:
    no grid window is an argument array, and no host operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c)⟩) h

/-! ## The body's two conditions on the grid point -/

/-- "This is the first tile of a cloud": the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last tile of a cloud": the second grid coordinate is seven. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the result windows are written -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from a cloud's last tile the two result windows are left alone and not written back; -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- at the last tile they are stored. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The body's buffers -/

/-- One buffer of each result window and the two accumulators, as views through which contents are stated. -/
abbrev VO0_2 : View sig .tc .vmem S1x1x128 .f32 := (Memref.whole cc0_stg2_0 : Memref sig .tc .vmem S1x1x128 .f32).view
abbrev VO0_3 : View sig .tc .vmem S1x1x128 .f32 := (Memref.whole cc0_stg3_0 : Memref sig .tc .vmem S1x1x128 .f32).view
abbrev ms0_0 (t : Fin cfg0.N) : Memref sig .tc .vmem S1x512x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The running column minima (one row of 4096) and the running sum of row minima (one number). -/
abbrev scM0_0 : Memref sig .tc .vmem S1x4096 .f32 := Memref.whole cc0_scratch0
abbrev scM0_1 : Memref sig .tc .vmem S1x1 .f32 := Memref.whole cc0_scratch1
abbrev VS0_0 : View sig .tc .vmem S1x4096 .f32 := scM0_0.view
abbrev VS0_1 : View sig .tc .vmem S1x1 .f32 := scM0_1.view

/-- What the grid keeps besides its windows: the two accumulators, at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.KB.RunA.lean ====
/-
  The kernel body run once, symbolically, at the first tile of a cloud: from buffers holding the two input blocks and the
  accumulators, it terminates without a fault, leaves the inputs as they were and each written buffer with a list of
  stores over whatever it held.
-/
import proofs.«166173_j25563645346662_2_alg».proof.Proof.KB.Base
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the FIRST tile of a cloud (and not the last): both accumulators are reset and then updated, the result
    windows are left as found. The lists are the stores each accumulator ends with, latest first. -/
noncomputable def kernelRun0_A (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : cond0_0 i) (hc1 : ¬cond0_1 i)
    (x0 : Vec F S1x512x5 .f32) (x1 : Vec F S1x5x4096 .f32) :
    Σ' (LS0 : List (View.Piece (Elt F) S1x4096 .f32)), { LS1 : List (View.Piece (Elt F) S1x1 .f32) //
      ∀ (xi2 xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi2 xi3 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.KB.RunB.lean ====
/-
  The kernel body run once, symbolically, at a middle tile of a cloud: from buffers holding the two input blocks and the
  accumulators, it terminates without a fault, leaves the inputs as they were and each written buffer with a list of
  stores over whatever it held.
-/
import proofs.«166173_j25563645346662_2_alg».proof.Proof.KB.Base
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a MIDDLE tile of a cloud: both accumulators, found at what the tile before left, are updated; the result
    windows are left as found. -/
noncomputable def kernelRun0_B (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : ¬cond0_1 i)
    (x0 : Vec F S1x512x5 .f32) (x1 : Vec F S1x5x4096 .f32) (xs0 : Vec F S1x4096 .f32) (xs1 : Vec F S1x1 .f32) :
    Σ' (LS0 : List (View.Piece (Elt F) S1x4096 .f32)), { LS1 : List (View.Piece (Elt F) S1x1 .f32) //
      ∀ (xi2 xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi2 xi3 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.KB.RunC.lean ====
/-
  The kernel body run once, symbolically, at the last tile of a cloud: from buffers holding the two input blocks and the
  accumulators, it terminates without a fault, leaves the inputs as they were and each written buffer with a list of
  stores over whatever it held.
-/
import proofs.«166173_j25563645346662_2_alg».proof.Proof.KB.Base
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the LAST tile of a cloud: both accumulators, found at what the tile before left, are updated, and the
    two result windows are stored from them. -/
noncomputable def kernelRun0_C (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i)
    (x0 : Vec F S1x512x5 .f32) (x1 : Vec F S1x5x4096 .f32) (xs0 : Vec F S1x4096 .f32) (xs1 : Vec F S1x1 .f32) :
    Σ' (L2 : List (View.Piece (Elt F) S1x1x128 .f32)) (L3 : List (View.Piece (Elt F) S1x1x128 .f32)) (LS0 : List (View.Piece (Elt F) S1x4096 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Fr

end
-- ==== Proof.KB.Pieces.lean ====
/-
  What each of the three runs of the kernel body leaves in the buffers it stores: the list of stores found by the run,
  read back, is the body's arithmetic applied to the input blocks and to what the accumulators held on entry.
-/
import proofs.«166173_j25563645346662_2_alg».proof.Proof.KB.RunA
import proofs.«166173_j25563645346662_2_alg».proof.Proof.KB.RunB
import proofs.«166173_j25563645346662_2_alg».proof.Proof.KB.RunC
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl
theorem hz3 : (![0, 0, 0] : Fin 3 → Nat) = fun _ => 0 := by funext a; fin_cases a <;> rfl

/-! Each buffer is stored whole, so what a list of stores leaves is the latest store's value; a value loaded back from
    a buffer is the value last stored there, or what the buffer held on entry. -/

theorem coverA_s0 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : cond0_0 i) (hc1 : ¬cond0_1 i) (x0 : Vec F S1x512x5 .f32) (x1 : Vec F S1x5x4096 .f32) (y : S1x4096.Idx) :
    ∃ pc ∈ (kernelRun0_A c i arg2 harg2 arg3 harg3 arg4 harg4 arg5 harg5 arg6 harg6 arg7 harg7 hc0 hc1 x0 x1).1, y ∈ pc.1.set :=
  View.cover_of_tiledL _ S1x4096.size (by sl_kernel_rfl) y

theorem pieceA_s0 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : cond0_0 i) (hc1 : ¬cond0_1 i) (x0 : Vec F S1x512x5 .f32) (x1 : Vec F S1x5x4096 .f32) (f : arg6.view.ty.Contents (Elt F)) :
    arg6.view.read (Elt F) (arg6.view.writes (Elt F) f (kernelRun0_A c i arg2 harg2 arg3 harg3 arg4 harg4 arg5 harg5 arg6 harg6 arg7 harg7 hc0 hc1 x0 x1).1) = k0_pay5 x0 x1 k0_pay2 := by
  rw [View.read_writes_eq_canon _ _ _ (coverA_s0 c i arg2 harg2 arg3 harg3 arg4 harg4 arg5 harg5 arg6 harg6 arg7 harg7 hc0 hc1 x0 x1)]
  unfold kernelRun0_A; dsimp only; sl_unfold_words
  rw [View.canon_cons_unit_zero hz2]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverA_s1 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : cond0_0 i) (hc1 : ¬cond0_1 i) (x0 : Vec F S1x512x5 .f32) (x1 : Vec F S1x5x4096 .f32) (y : S1x1.Idx) :
    ∃ pc ∈ (kernelRun0_A c i arg2 harg2 arg3 harg3 arg4 harg4 arg5 harg5 arg6 harg6 arg7 harg7 hc0 hc1 x0 x1).2.1, y ∈ pc.1.set :=
  View.cover_of_tiledL _ S1x1.size (by sl_kernel_rfl) y

theorem pieceA_s1 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : cond0_0 i) (hc1 : ¬cond0_1 i) (x0 : Vec F S1x512x5 .f32) (x1 : Vec F S1x5x4096 .f32) (f : arg7.view.ty.Contents (Elt F)) :
    arg7.view.read (Elt F) (arg7.view.writes (Elt F) f (kernelRun0_A c i arg2 harg2 arg3 harg3 arg4 harg4 arg5 harg5 arg6 harg6 arg7 harg7 hc0 hc1 x0 x1).2.1) = k0_pay4 x0 x1 k0_pay1 := by
  rw [View.read_writes_eq_canon _ _ _ (coverA_s1 c i arg2 harg2 arg3 harg3 arg4 harg4 arg5 harg5 arg6 harg6 arg7 harg7 hc0 hc1 x0 x1)]
  unfold kernelRun0_A; dsimp only; sl_unfold_words
  rw [View.canon_cons_unit_zero hz2]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverB_s0 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : ¬cond0_1 i) (x0 : Vec F S1x512x5 .f32) (x1 : Vec F S1x5x4096 .f32) (xs0 : Vec F S1x4096 .f32) (xs1 : Vec F S1x1 .f32) (y : S1x4096.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL _ S1x4096.size (by sl_kernel_rfl) y

theorem pieceB_s0 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : ¬cond0_1 i) (x0 : Vec F S1x512x5 .f32) (x1 : Vec F S1x5x4096 .f32) (xs0 : Vec F S1x4096 .f32) (xs1 : Vec F S1x1 .f32) (f : arg6.view.ty.Contents (Elt F)) :
    arg6.view.read (Elt F) (arg6.view.writes (Elt F) f (kernelRun0_B c i arg2 harg2 arg3 harg3 arg4 harg4 arg5 harg5 arg6 harg6 arg7 harg7 hc0 hc1 x0 x1 xs0 xs1).1) = k0_pay5 x0 x1 xs0 := by
  rw [View.read_writes_eq_canon _ _ _ (coverB_s0 c i arg2 harg2 arg3 harg3 arg4 harg4 arg5 harg5 arg6 harg6 arg7 harg7 hc0 hc1 x0 x1 xs0 xs1)]
  unfold kernelRun0_B; dsimp only; sl_unfold_words
  rw [View.canon_cons_unit_zero hz2]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverB_s1 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : ¬cond0_1 i) (x0 : Vec F S1x512x5 .f32) (x1 : Vec F S1x5x4096 .f32) (xs0 : Vec F S1x4096 .f32) (xs1 : Vec F S1x1 .f32) (y : S1x1.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL _ S1x1.size (by sl_kernel_rfl) y

theorem pieceB_s1 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : ¬cond0_1 i) (x0 : Vec F S1x512x5 .f32) (x1 : Vec F S1x5x4096 .f32) (xs0 : Vec F S1x4096 .f32) (xs1 : Vec F S1x1 .f32) (f : arg7.view.ty.Contents (Elt F)) :
    arg7.view.read (Elt F) (arg7.view.writes (Elt F) f (kernelRun0_B c i arg2 harg2 arg3 harg3 arg4 harg4 arg5 harg5 arg6 harg6 arg7 harg7 hc0 hc1 x0 x1 xs0 xs1).2.1) = k0_pay4 x0 x1 xs1 := by
  rw [View.read_writes_eq_canon _ _ _ (coverB_s1 c i arg2 harg2 arg3 harg3 arg4 harg4 arg5 harg5 arg6 harg6 arg7 harg7 hc0 hc1 x0 x1 xs0 xs1)]
  unfold kernelRun0_B; dsimp only; sl_unfold_words
  rw [View.canon_cons_unit_zero hz2]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverC_o2 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (y : S1x1x128.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL _ S1x1x128.size (by sl_kernel_rfl) y

theorem pieceC_o2 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (f : arg4.view.ty.Contents (Elt F)) :
    arg4.view.read (Elt F) (arg4.view.writes (Elt F) f (kernelRun0_C c i arg2 harg2 arg3 harg3 arg4 harg4 arg5 harg5 arg6 harg6 arg7 harg7 hc0 hc1 x0 x1 xs0 xs1).1) = k0_pay6 (k0_pay4 x0 x1 xs1) := by
  rw [View.read_writes_eq_canon _ _ _ (coverC_o2 c i arg2 harg2 arg3 harg3 arg4 harg4 arg5 harg5 arg6 harg6 arg7 harg7 hc0 hc1 x0 x1 xs0 xs1)]
  unfold kernelRun0_C; dsimp only; sl_unfold_words
  rw [View.canon_cons_unit_zero hz3]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverC_o3 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (y : S1x1x128.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL _ S1x1x128.size (by sl_kernel_rfl) y

theorem pieceC_o3 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (f : arg5.view.ty.Contents (Elt F)) :
    arg5.view.read (Elt F) (arg5.view.writes (Elt F) f (kernelRun0_C c i arg2 harg2 arg3 harg3 arg4 harg4 arg5 harg5 arg6 harg6 arg7 harg7 hc0 hc1 x0 x1 xs0 xs1).2.1) = k0_pay7 (k0_pay5 x0 x1 xs0) := by
  rw [View.read_writes_eq_canon _ _ _ (coverC_o3 c i arg2 harg2 arg3 harg3 arg4 harg4 arg5 harg5 arg6 harg6 arg7 harg7 hc0 hc1 x0 x1 xs0 xs1)]
  unfold kernelRun0_C; dsimp only; sl_unfold_words
  rw [View.canon_cons_unit_zero hz3]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverC_s0 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (y : S1x4096.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL _ S1x4096.size (by sl_kernel_rfl) y

theorem pieceC_s0 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (f : arg6.view.ty.Contents (Elt F)) :
    arg6.view.read (Elt F) (arg6.view.writes (Elt F) f (kernelRun0_C c i arg2 harg2 arg3 harg3 arg4 harg4 arg5 harg5 arg6 harg6 arg7 harg7 hc0 hc1 x0 x1 xs0 xs1).2.2.1) = k0_pay5 x0 x1 xs0 := by
  rw [View.read_writes_eq_canon _ _ _ (coverC_s0 c i arg2 harg2 arg3 harg3 arg4 harg4 arg5 harg5 arg6 harg6 arg7 harg7 hc0 hc1 x0 x1 xs0 xs1)]
  unfold kernelRun0_C; dsimp only; sl_unfold_words
  rw [View.canon_cons_unit_zero hz2]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverC_s1 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (y : S1x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL _ S1x1.size (by sl_kernel_rfl) y

theorem pieceC_s1 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (f : arg7.view.ty.Contents (Elt F)) :
    arg7.view.read (Elt F) (arg7.view.writes (Elt F) f (kernelRun0_C c i arg2 harg2 arg3 harg3 arg4 harg4 arg5 harg5 arg6 harg6 arg7 harg7 hc0 hc1 x0 x1 xs0 xs1).2.2.2.1) = k0_pay4 x0 x1 xs1 := by
  rw [View.read_writes_eq_canon _ _ _ (coverC_s1 c i arg2 harg2 arg3 harg3 arg4 harg4 arg5 harg5 arg6 harg6 arg7 harg7 hc0 hc1 x0 x1 xs0 xs1)]
  unfold kernelRun0_C; dsimp only; sl_unfold_words
  rw [View.canon_cons_unit_zero hz2]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

end Cert.Kernel.Fr

end
-- ==== Proof.KB.Frame.lean ====
/-
  The frame of the whole program: what the two accumulators hold after each of the 128 grid points (restarted at a
  cloud's first tile, continued otherwise), the proof data of the grid over it, the body at a generic grid point by the
  three runs, and from these the run of the program: it terminates without a fault, its argument arrays unchanged, the
  two result arrays at what the last tile of each cloud wrote back.
-/
import proofs.«166173_j25563645346662_2_alg».proof.Proof.KB.Pieces
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two accumulators hold after each grid point -/

/-- After grid point `n` (points run cloud by cloud, eight tiles each): the running column minima and the running sum
    of row minima, restarted from (+inf, 0) at a cloud's first tile and otherwise continued from the point before. -/
def acc (c : Dev nD) : (n : ℕ) → n < cfg0.N → Vec F S1x4096 .f32 × Vec F S1x1 .f32
  | 0, hn => (k0_pay5 (iblk m c 0 ⟨0, hn⟩) (iblk m c 1 ⟨0, hn⟩) k0_pay2, k0_pay4 (iblk m c 0 ⟨0, hn⟩) (iblk m c 1 ⟨0, hn⟩) k0_pay1)
  | n + 1, hn =>
    if (n + 1) % 8 = 0 then
      (k0_pay5 (iblk m c 0 ⟨n + 1, hn⟩) (iblk m c 1 ⟨n + 1, hn⟩) k0_pay2, k0_pay4 (iblk m c 0 ⟨n + 1, hn⟩) (iblk m c 1 ⟨n + 1, hn⟩) k0_pay1)
    else
      (k0_pay5 (iblk m c 0 ⟨n + 1, hn⟩) (iblk m c 1 ⟨n + 1, hn⟩) (acc c n (Nat.lt_of_succ_lt hn)).1,
       k0_pay4 (iblk m c 0 ⟨n + 1, hn⟩) (iblk m c 1 ⟨n + 1, hn⟩) (acc c n (Nat.lt_of_succ_lt hn)).2)

theorem acc_first (c : Dev nD) (t : Fin cfg0.N) (h0 : t.val % 8 = 0) :
    acc m c t.val t.isLt = (k0_pay5 (iblk m c 0 t) (iblk m c 1 t) k0_pay2, k0_pay4 (iblk m c 0 t) (iblk m c 1 t) k0_pay1) := by
  obtain ⟨n, hn⟩ := t
  cases n with
  | zero => rfl
  | succ n => exact (if_pos h0)

theorem acc_next (c : Dev nD) (t : Fin cfg0.N) (h0 : ¬t.val % 8 = 0) :
    acc m c t.val t.isLt = (k0_pay5 (iblk m c 0 t) (iblk m c 1 t) (acc m c (t.val - 1) (Nat.lt_of_le_of_lt (Nat.sub_le _ _) t.isLt)).1,
      k0_pay4 (iblk m c 0 t) (iblk m c 1 t) (acc m c (t.val - 1) (Nat.lt_of_le_of_lt (Nat.sub_le _ _) t.isLt)).2) := by
  obtain ⟨n, hn⟩ := t
  cases n with
  | zero => exact absurd (Nat.zero_mod _) h0
  | succ n => exact (if_neg h0)

/-- What the grid keeps between points: before the first point the accumulators at anything; afterwards at what the
    point before left. -/
def PhiS (c : Dev nD) : (n : ℕ) → n ≤ cfg0.N → sProp 𝕄
  | 0, _ => Pipeline.ΦA spec0 c
  | n + 1, hn => iprop(iprop(owns (c : Thread nD τ) scM0_0 fullShare ((acc m c n hn).1) ∗ owns (c : Thread nD τ) scM0_1 fullShare ((acc m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((acc m c n hn).1) ∗ owns (c : Thread nD τ) scM0_1 fullShare ((acc m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((acc m c (n - 1) (by omega)).1) ∗ owns (c : Thread nD τ) scM0_1 fullShare ((acc m c (n - 1) (by omega)).2)) ∗ (∃ r, prngReg c r)) := by
  cases n with
  | zero => exact absurd rfl hz
  | succ n => rfl

/-! ## The proof data of the grid -/

/-- The arrays as the grid finds them; after the body at point `t` each input buffer still at its block, the two result
    buffers at the accumulated sum and at the sum of the accumulated column minima, each repeated along 128 lanes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay6 (acc m c t.val t.isLt).2
    | ⟨3, _⟩ => k0_pay7 (acc m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay6 (acc m c t.val t.isLt).2 := by dsimp only [dats]
theorem after0_3 (c : Dev nD) (t : Fin cfg0.N) : (dats m 0 c).after 3 t = k0_pay7 (acc m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a generic grid point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any grid point: the input buffers hold their blocks; the point's position in its cloud says which of the
    three runs applies; the accumulators are found at what the point before left (at anything at the very first point,
    where they are reset anyway) and are handed back at this point's values. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val % 8 = 7
  · have h0 : ¬t.val % 8 = 0 := by omega
    have hz : t.val ≠ 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [show (dats m 0 c).leavesExact 3 t = owns (c : Thread nD τ) (ms0_3 t) fullShare ((dats m 0 c).after 3 t) from by
      unfold Dat.leavesExact; rw [liveAt0_3 t ((hcond0_1 t).mpr h1)], after0_3]
    rw [acc_next m c t h0]; (try dsimp only)
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩⟩
    iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hg]
    · isplitl [HS0 HS1]
      · isplitl [HS0]
        · unfold owns; iexists _; isplitr
          swap; · iexact HS0
          ipureintro; exact pieceC_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _ _ _
        · unfold owns; iexists _; isplitr
          swap; · iexact HS1
          ipureintro; exact pieceC_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _ _ _
      iexact Hg
    isplitl [Ho]; · iexact Ho
    isplitl [H0]; · iexact H0
    isplitl [H1]; · iexact H1
    isplitl [H2]
    · unfold owns; iexists _; isplitr
      swap; · iexact H2
      ipureintro; exact pieceC_o2 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _ _ _
    · unfold owns; iexists _; isplitr
      swap; · iexact H3
      ipureintro; exact pieceC_o3 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _ _ _
  · rw [Dat.leavesExact_idle (dats m 0 c) 2 t (idleAt0_2 t (fun h => h1 ((hcond0_1 t).mp h))) (noFlush0_2 t (fun h => h1 ((hcond0_1 t).mp h)))]
    rw [Dat.leavesExact_idle (dats m 0 c) 3 t (idleAt0_3 t (fun h => h1 ((hcond0_1 t).mp h))) (noFlush0_3 t (fun h => h1 ((hcond0_1 t).mp h)))]
    by_cases h0 : t.val % 8 = 0
    · rw [acc_first m c t h0]; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact pieceA_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _
            · unfold owns; iexists _; isplitr
              swap; · iexact HS1
              ipureintro; exact pieceA_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _
          iexact Hg
        isplitl [Ho]; · iexact Ho
        isplitl [H0]; · iexact H0
        isplitl [H1]; · iexact H1
        isplitl [H2]; · iexists _; iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact pieceA_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _
            · unfold owns; iexists _; isplitr
              swap; · iexact HS1
              ipureintro; exact pieceA_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _
          iexact Hg
        isplitl [Ho]; · iexact Ho
        isplitl [H0]; · iexact H0
        isplitl [H1]; · iexact H1
        isplitl [H2]; · iexists _; iexact H2
        iexists _; iexact H3
    · have hz : t.val ≠ 0 := fun h => h0 (by rw [h])
      rw [acc_next m c t h0]; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact pieceB_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _ _ _
          · unfold owns; iexists _; isplitr
            swap; · iexact HS1
            ipureintro; exact pieceB_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _ _ _
        iexact Hg
      isplitl [Ho]; · iexact Ho
      isplitl [H0]; · iexact H0
      isplitl [H1]; · iexact H1
      isplitl [H2]; · iexists _; iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run of the whole program -/

set_option backward.isDefEq.respectTransparency.types false in
/-- Every weakly fair execution of the program terminates without a fault, each of the grid's four arrays ending at
    what the grid points wrote back and every other buffer as the host operations after the grid leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to its end without a fault and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.KI.Base.lean ====
/-
  The frame of the program around its grid of 16 × 8 points: what every buffer holds when the grid is entered,
  that the host operations after it leave the grid's arrays and the argument arrays alone, the block each grid point
  reads, the two conditions of the body (first tile of a cloud, last tile of a cloud) decided over the grid, and where
  the two result windows are written (only at a cloud's last tile).
-/
import proofs.«166173_j25563645346662_2_alg».proof.Proof.Gen.KernelIdeal.Launch
import proofs.«166173_j25563645346662_2_alg».proof.Proof.Gen.KernelIdeal.Skeleton
import proofs.«166173_j25563645346662_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one grid: host operations, the grid, host operations -/

/-- What each buffer of core `c` holds when the grid is entered: the launch memory after the host operations that
    build the two augmented coordinate arrays. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the grid, the grid, and then the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the grid touch only buffers that outlive it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the four arrays the grid reads or writes. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the grid writes an argument array, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- and none after it does: both end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks the grid points read -/

/-- Block `t` of array `w`, read off the array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first cloud's block is in its buffer at every grid point: it is fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second cloud's block is in its buffer at every grid point: fetched when the cloud changes, and the body leaves
    it in place in between. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run of the whole program that names every buffer's final contents, the argument arrays end as launched:
    no grid window is an argument array, and no host operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c)⟩) h

/-! ## The body's two conditions on the grid point -/

/-- "This is the first tile of a cloud": the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last tile of a cloud": the second grid coordinate is seven. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the result windows are written -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from a cloud's last tile the two result windows are left alone and not written back; -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- at the last tile they are stored. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The body's buffers -/

/-- One buffer of each result window and the two accumulators, as views through which contents are stated. -/
abbrev VO0_2 : View sig .tc .vmem S1x1x128 .f32 := (Memref.whole cc0_stg2_0 : Memref sig .tc .vmem S1x1x128 .f32).view
abbrev VO0_3 : View sig .tc .vmem S1x1x128 .f32 := (Memref.whole cc0_stg3_0 : Memref sig .tc .vmem S1x1x128 .f32).view
abbrev ms0_0 (t : Fin cfg0.N) : Memref sig .tc .vmem S1x512x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The running column minima (one row of 4096) and the running sum of row minima (one number). -/
abbrev scM0_0 : Memref sig .tc .vmem S1x4096 .f32 := Memref.whole cc0_scratch0
abbrev scM0_1 : Memref sig .tc .vmem S1x1 .f32 := Memref.whole cc0_scratch1
abbrev VS0_0 : View sig .tc .vmem S1x4096 .f32 := scM0_0.view
abbrev VS0_1 : View sig .tc .vmem S1x1 .f32 := scM0_1.view

/-- What the grid keeps besides its windows: the two accumulators, at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KI.RunA.lean ====
/-
  The kernel body run once, symbolically, at the first tile of a cloud: from buffers holding the two input blocks and the
  accumulators, it terminates without a fault, leaves the inputs as they were and each written buffer with a list of
  stores over whatever it held.
-/
import proofs.«166173_j25563645346662_2_alg».proof.Proof.KI.Base
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the FIRST tile of a cloud (and not the last): both accumulators are reset and then updated, the result
    windows are left as found. The lists are the stores each accumulator ends with, latest first. -/
noncomputable def kernelRun0_A (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : cond0_0 i) (hc1 : ¬cond0_1 i)
    (x0 : Vec F S1x512x5 .f32) (x1 : Vec F S1x5x4096 .f32) :
    Σ' (LS0 : List (View.Piece (Elt F) S1x4096 .f32)), { LS1 : List (View.Piece (Elt F) S1x1 .f32) //
      ∀ (xi2 xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi2 xi3 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.KI.RunB.lean ====
/-
  The kernel body run once, symbolically, at a middle tile of a cloud: from buffers holding the two input blocks and the
  accumulators, it terminates without a fault, leaves the inputs as they were and each written buffer with a list of
  stores over whatever it held.
-/
import proofs.«166173_j25563645346662_2_alg».proof.Proof.KI.Base
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a MIDDLE tile of a cloud: both accumulators, found at what the tile before left, are updated; the result
    windows are left as found. -/
noncomputable def kernelRun0_B (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : ¬cond0_1 i)
    (x0 : Vec F S1x512x5 .f32) (x1 : Vec F S1x5x4096 .f32) (xs0 : Vec F S1x4096 .f32) (xs1 : Vec F S1x1 .f32) :
    Σ' (LS0 : List (View.Piece (Elt F) S1x4096 .f32)), { LS1 : List (View.Piece (Elt F) S1x1 .f32) //
      ∀ (xi2 xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi2 xi3 E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.KI.RunC.lean ====
/-
  The kernel body run once, symbolically, at the last tile of a cloud: from buffers holding the two input blocks and the
  accumulators, it terminates without a fault, leaves the inputs as they were and each written buffer with a list of
  stores over whatever it held.
-/
import proofs.«166173_j25563645346662_2_alg».proof.Proof.KI.Base
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the LAST tile of a cloud: both accumulators, found at what the tile before left, are updated, and the
    two result windows are stored from them. -/
noncomputable def kernelRun0_C (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i)
    (x0 : Vec F S1x512x5 .f32) (x1 : Vec F S1x5x4096 .f32) (xs0 : Vec F S1x4096 .f32) (xs1 : Vec F S1x1 .f32) :
    Σ' (L2 : List (View.Piece (Elt F) S1x1x128 .f32)) (L3 : List (View.Piece (Elt F) S1x1x128 .f32)) (LS0 : List (View.Piece (Elt F) S1x4096 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Fr

end
-- ==== Proof.KI.Pieces.lean ====
/-
  What each of the three runs of the kernel body leaves in the buffers it stores: the list of stores found by the run,
  read back, is the body's arithmetic applied to the input blocks and to what the accumulators held on entry.
-/
import proofs.«166173_j25563645346662_2_alg».proof.Proof.KI.RunA
import proofs.«166173_j25563645346662_2_alg».proof.Proof.KI.RunB
import proofs.«166173_j25563645346662_2_alg».proof.Proof.KI.RunC
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl
theorem hz3 : (![0, 0, 0] : Fin 3 → Nat) = fun _ => 0 := by funext a; fin_cases a <;> rfl

/-! Each buffer is stored whole, so what a list of stores leaves is the latest store's value; a value loaded back from
    a buffer is the value last stored there, or what the buffer held on entry. -/

theorem coverA_s0 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : cond0_0 i) (hc1 : ¬cond0_1 i) (x0 : Vec F S1x512x5 .f32) (x1 : Vec F S1x5x4096 .f32) (y : S1x4096.Idx) :
    ∃ pc ∈ (kernelRun0_A c i arg2 harg2 arg3 harg3 arg4 harg4 arg5 harg5 arg6 harg6 arg7 harg7 hc0 hc1 x0 x1).1, y ∈ pc.1.set :=
  View.cover_of_tiledL _ S1x4096.size (by sl_kernel_rfl) y

theorem pieceA_s0 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : cond0_0 i) (hc1 : ¬cond0_1 i) (x0 : Vec F S1x512x5 .f32) (x1 : Vec F S1x5x4096 .f32) (f : arg6.view.ty.Contents (Elt F)) :
    arg6.view.read (Elt F) (arg6.view.writes (Elt F) f (kernelRun0_A c i arg2 harg2 arg3 harg3 arg4 harg4 arg5 harg5 arg6 harg6 arg7 harg7 hc0 hc1 x0 x1).1) = k0_pay5 x0 x1 k0_pay2 := by
  rw [View.read_writes_eq_canon _ _ _ (coverA_s0 c i arg2 harg2 arg3 harg3 arg4 harg4 arg5 harg5 arg6 harg6 arg7 harg7 hc0 hc1 x0 x1)]
  unfold kernelRun0_A; dsimp only; sl_unfold_words
  rw [View.canon_cons_unit_zero hz2]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverA_s1 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : cond0_0 i) (hc1 : ¬cond0_1 i) (x0 : Vec F S1x512x5 .f32) (x1 : Vec F S1x5x4096 .f32) (y : S1x1.Idx) :
    ∃ pc ∈ (kernelRun0_A c i arg2 harg2 arg3 harg3 arg4 harg4 arg5 harg5 arg6 harg6 arg7 harg7 hc0 hc1 x0 x1).2.1, y ∈ pc.1.set :=
  View.cover_of_tiledL _ S1x1.size (by sl_kernel_rfl) y

theorem pieceA_s1 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : cond0_0 i) (hc1 : ¬cond0_1 i) (x0 : Vec F S1x512x5 .f32) (x1 : Vec F S1x5x4096 .f32) (f : arg7.view.ty.Contents (Elt F)) :
    arg7.view.read (Elt F) (arg7.view.writes (Elt F) f (kernelRun0_A c i arg2 harg2 arg3 harg3 arg4 harg4 arg5 harg5 arg6 harg6 arg7 harg7 hc0 hc1 x0 x1).2.1) = k0_pay4 x0 x1 k0_pay1 := by
  rw [View.read_writes_eq_canon _ _ _ (coverA_s1 c i arg2 harg2 arg3 harg3 arg4 harg4 arg5 harg5 arg6 harg6 arg7 harg7 hc0 hc1 x0 x1)]
  unfold kernelRun0_A; dsimp only; sl_unfold_words
  rw [View.canon_cons_unit_zero hz2]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverB_s0 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : ¬cond0_1 i) (x0 : Vec F S1x512x5 .f32) (x1 : Vec F S1x5x4096 .f32) (xs0 : Vec F S1x4096 .f32) (xs1 : Vec F S1x1 .f32) (y : S1x4096.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL _ S1x4096.size (by sl_kernel_rfl) y

theorem pieceB_s0 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : ¬cond0_1 i) (x0 : Vec F S1x512x5 .f32) (x1 : Vec F S1x5x4096 .f32) (xs0 : Vec F S1x4096 .f32) (xs1 : Vec F S1x1 .f32) (f : arg6.view.ty.Contents (Elt F)) :
    arg6.view.read (Elt F) (arg6.view.writes (Elt F) f (kernelRun0_B c i arg2 harg2 arg3 harg3 arg4 harg4 arg5 harg5 arg6 harg6 arg7 harg7 hc0 hc1 x0 x1 xs0 xs1).1) = k0_pay5 x0 x1 xs0 := by
  rw [View.read_writes_eq_canon _ _ _ (coverB_s0 c i arg2 harg2 arg3 harg3 arg4 harg4 arg5 harg5 arg6 harg6 arg7 harg7 hc0 hc1 x0 x1 xs0 xs1)]
  unfold kernelRun0_B; dsimp only; sl_unfold_words
  rw [View.canon_cons_unit_zero hz2]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverB_s1 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : ¬cond0_1 i) (x0 : Vec F S1x512x5 .f32) (x1 : Vec F S1x5x4096 .f32) (xs0 : Vec F S1x4096 .f32) (xs1 : Vec F S1x1 .f32) (y : S1x1.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL _ S1x1.size (by sl_kernel_rfl) y

theorem pieceB_s1 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : ¬cond0_1 i) (x0 : Vec F S1x512x5 .f32) (x1 : Vec F S1x5x4096 .f32) (xs0 : Vec F S1x4096 .f32) (xs1 : Vec F S1x1 .f32) (f : arg7.view.ty.Contents (Elt F)) :
    arg7.view.read (Elt F) (arg7.view.writes (Elt F) f (kernelRun0_B c i arg2 harg2 arg3 harg3 arg4 harg4 arg5 harg5 arg6 harg6 arg7 harg7 hc0 hc1 x0 x1 xs0 xs1).2.1) = k0_pay4 x0 x1 xs1 := by
  rw [View.read_writes_eq_canon _ _ _ (coverB_s1 c i arg2 harg2 arg3 harg3 arg4 harg4 arg5 harg5 arg6 harg6 arg7 harg7 hc0 hc1 x0 x1 xs0 xs1)]
  unfold kernelRun0_B; dsimp only; sl_unfold_words
  rw [View.canon_cons_unit_zero hz2]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverC_o2 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (y : S1x1x128.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL _ S1x1x128.size (by sl_kernel_rfl) y

theorem pieceC_o2 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (f : arg4.view.ty.Contents (Elt F)) :
    arg4.view.read (Elt F) (arg4.view.writes (Elt F) f (kernelRun0_C c i arg2 harg2 arg3 harg3 arg4 harg4 arg5 harg5 arg6 harg6 arg7 harg7 hc0 hc1 x0 x1 xs0 xs1).1) = k0_pay6 (k0_pay4 x0 x1 xs1) := by
  rw [View.read_writes_eq_canon _ _ _ (coverC_o2 c i arg2 harg2 arg3 harg3 arg4 harg4 arg5 harg5 arg6 harg6 arg7 harg7 hc0 hc1 x0 x1 xs0 xs1)]
  unfold kernelRun0_C; dsimp only; sl_unfold_words
  rw [View.canon_cons_unit_zero hz3]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverC_o3 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (y : S1x1x128.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL _ S1x1x128.size (by sl_kernel_rfl) y

theorem pieceC_o3 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (f : arg5.view.ty.Contents (Elt F)) :
    arg5.view.read (Elt F) (arg5.view.writes (Elt F) f (kernelRun0_C c i arg2 harg2 arg3 harg3 arg4 harg4 arg5 harg5 arg6 harg6 arg7 harg7 hc0 hc1 x0 x1 xs0 xs1).2.1) = k0_pay7 (k0_pay5 x0 x1 xs0) := by
  rw [View.read_writes_eq_canon _ _ _ (coverC_o3 c i arg2 harg2 arg3 harg3 arg4 harg4 arg5 harg5 arg6 harg6 arg7 harg7 hc0 hc1 x0 x1 xs0 xs1)]
  unfold kernelRun0_C; dsimp only; sl_unfold_words
  rw [View.canon_cons_unit_zero hz3]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverC_s0 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (y : S1x4096.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL _ S1x4096.size (by sl_kernel_rfl) y

theorem pieceC_s0 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (f : arg6.view.ty.Contents (Elt F)) :
    arg6.view.read (Elt F) (arg6.view.writes (Elt F) f (kernelRun0_C c i arg2 harg2 arg3 harg3 arg4 harg4 arg5 harg5 arg6 harg6 arg7 harg7 hc0 hc1 x0 x1 xs0 xs1).2.2.1) = k0_pay5 x0 x1 xs0 := by
  rw [View.read_writes_eq_canon _ _ _ (coverC_s0 c i arg2 harg2 arg3 harg3 arg4 harg4 arg5 harg5 arg6 harg6 arg7 harg7 hc0 hc1 x0 x1 xs0 xs1)]
  unfold kernelRun0_C; dsimp only; sl_unfold_words
  rw [View.canon_cons_unit_zero hz2]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

theorem coverC_s1 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (y : S1x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL _ S1x1.size (by sl_kernel_rfl) y

theorem pieceC_s1 (c : Dev nD) (i : grid0.Coords) (arg2 : Memref sig .tc .vmem S1x512x5 .f32) (harg2 : arg2.IsWhole) (arg3 : Memref sig .tc .vmem S1x5x4096 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x4096 .f32) (harg6 : arg6.IsWhole) (arg7 : Memref sig .tc .vmem S1x1 .f32) (harg7 : arg7.IsWhole) (hc0 : ¬cond0_0 i) (hc1 : cond0_1 i) (x0 : Vec F S1x512x5 .f32) (x1 : Vec F S1x5x4096 .f32) (xs0 : Vec F S1x4096 .f32) (xs1 : Vec F S1x1 .f32) (f : arg7.view.ty.Contents (Elt F)) :
    arg7.view.read (Elt F) (arg7.view.writes (Elt F) f (kernelRun0_C c i arg2 harg2 arg3 harg3 arg4 harg4 arg5 harg5 arg6 harg6 arg7 harg7 hc0 hc1 x0 x1 xs0 xs1).2.2.2.1) = k0_pay4 x0 x1 xs1 := by
  rw [View.read_writes_eq_canon _ _ _ (coverC_s1 c i arg2 harg2 arg3 harg3 arg4 harg4 arg5 harg5 arg6 harg6 arg7 harg7 hc0 hc1 x0 x1 xs0 xs1)]
  unfold kernelRun0_C; dsimp only; sl_unfold_words
  rw [View.canon_cons_unit_zero hz2]
  simp only [View.readAt_eq_ld, harg2.read_unread, harg3.read_unread, harg6.read_unread, harg7.read_unread, View.ld_unit_zero (S := S1x512x5) hz3, View.ld_unit_zero (S := S1x5x4096) hz3, View.ld_unit_zero (S := S1x4096) hz2, View.ld_unit_zero (S := S1x1) hz2, View.readCov_unit_zero (S := S1x4096) _ hz2, View.readCov_unit_zero (S := S1x1) _ hz2]

end Cert.KernelIdeal.Fr

end
-- ==== Proof.KI.Frame.lean ====
/-
  The frame of the whole program: what the two accumulators hold after each of the 128 grid points (restarted at a
  cloud's first tile, continued otherwise), the proof data of the grid over it, the body at a generic grid point by the
  three runs, and from these the run of the program: it terminates without a fault, its argument arrays unchanged, the
  two result arrays at what the last tile of each cloud wrote back.
-/
import proofs.«166173_j25563645346662_2_alg».proof.Proof.KI.Pieces
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two accumulators hold after each grid point -/

/-- After grid point `n` (points run cloud by cloud, eight tiles each): the running column minima and the running sum
    of row minima, restarted from (+inf, 0) at a cloud's first tile and otherwise continued from the point before. -/
def acc (c : Dev nD) : (n : ℕ) → n < cfg0.N → Vec F S1x4096 .f32 × Vec F S1x1 .f32
  | 0, hn => (k0_pay5 (iblk m c 0 ⟨0, hn⟩) (iblk m c 1 ⟨0, hn⟩) k0_pay2, k0_pay4 (iblk m c 0 ⟨0, hn⟩) (iblk m c 1 ⟨0, hn⟩) k0_pay1)
  | n + 1, hn =>
    if (n + 1) % 8 = 0 then
      (k0_pay5 (iblk m c 0 ⟨n + 1, hn⟩) (iblk m c 1 ⟨n + 1, hn⟩) k0_pay2, k0_pay4 (iblk m c 0 ⟨n + 1, hn⟩) (iblk m c 1 ⟨n + 1, hn⟩) k0_pay1)
    else
      (k0_pay5 (iblk m c 0 ⟨n + 1, hn⟩) (iblk m c 1 ⟨n + 1, hn⟩) (acc c n (Nat.lt_of_succ_lt hn)).1,
       k0_pay4 (iblk m c 0 ⟨n + 1, hn⟩) (iblk m c 1 ⟨n + 1, hn⟩) (acc c n (Nat.lt_of_succ_lt hn)).2)

theorem acc_first (c : Dev nD) (t : Fin cfg0.N) (h0 : t.val % 8 = 0) :
    acc m c t.val t.isLt = (k0_pay5 (iblk m c 0 t) (iblk m c 1 t) k0_pay2, k0_pay4 (iblk m c 0 t) (iblk m c 1 t) k0_pay1) := by
  obtain ⟨n, hn⟩ := t
  cases n with
  | zero => rfl
  | succ n => exact (if_pos h0)

theorem acc_next (c : Dev nD) (t : Fin cfg0.N) (h0 : ¬t.val % 8 = 0) :
    acc m c t.val t.isLt = (k0_pay5 (iblk m c 0 t) (iblk m c 1 t) (acc m c (t.val - 1) (Nat.lt_of_le_of_lt (Nat.sub_le _ _) t.isLt)).1,
      k0_pay4 (iblk m c 0 t) (iblk m c 1 t) (acc m c (t.val - 1) (Nat.lt_of_le_of_lt (Nat.sub_le _ _) t.isLt)).2) := by
  obtain ⟨n, hn⟩ := t
  cases n with
  | zero => exact absurd (Nat.zero_mod _) h0
  | succ n => exact (if_neg h0)

/-- What the grid keeps between points: before the first point the accumulators at anything; afterwards at what the
    point before left. -/
def PhiS (c : Dev nD) : (n : ℕ) → n ≤ cfg0.N → sProp 𝕄
  | 0, _ => Pipeline.ΦA spec0 c
  | n + 1, hn => iprop(iprop(owns (c : Thread nD τ) scM0_0 fullShare ((acc m c n hn).1) ∗ owns (c : Thread nD τ) scM0_1 fullShare ((acc m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((acc m c n hn).1) ∗ owns (c : Thread nD τ) scM0_1 fullShare ((acc m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((acc m c (n - 1) (by omega)).1) ∗ owns (c : Thread nD τ) scM0_1 fullShare ((acc m c (n - 1) (by omega)).2)) ∗ (∃ r, prngReg c r)) := by
  cases n with
  | zero => exact absurd rfl hz
  | succ n => rfl

/-! ## The proof data of the grid -/

/-- The arrays as the grid finds them; after the body at point `t` each input buffer still at its block, the two result
    buffers at the accumulated sum and at the sum of the accumulated column minima, each repeated along 128 lanes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay6 (acc m c t.val t.isLt).2
    | ⟨3, _⟩ => k0_pay7 (acc m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay6 (acc m c t.val t.isLt).2 := by dsimp only [dats]
theorem after0_3 (c : Dev nD) (t : Fin cfg0.N) : (dats m 0 c).after 3 t = k0_pay7 (acc m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a generic grid point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any grid point: the input buffers hold their blocks; the point's position in its cloud says which of the
    three runs applies; the accumulators are found at what the point before left (at anything at the very first point,
    where they are reset anyway) and are handed back at this point's values. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val % 8 = 7
  · have h0 : ¬t.val % 8 = 0 := by omega
    have hz : t.val ≠ 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [show (dats m 0 c).leavesExact 3 t = owns (c : Thread nD τ) (ms0_3 t) fullShare ((dats m 0 c).after 3 t) from by
      unfold Dat.leavesExact; rw [liveAt0_3 t ((hcond0_1 t).mpr h1)], after0_3]
    rw [acc_next m c t h0]; (try dsimp only)
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩⟩
    iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hg]
    · isplitl [HS0 HS1]
      · isplitl [HS0]
        · unfold owns; iexists _; isplitr
          swap; · iexact HS0
          ipureintro; exact pieceC_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _ _ _
        · unfold owns; iexists _; isplitr
          swap; · iexact HS1
          ipureintro; exact pieceC_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _ _ _
      iexact Hg
    isplitl [Ho]; · iexact Ho
    isplitl [H0]; · iexact H0
    isplitl [H1]; · iexact H1
    isplitl [H2]
    · unfold owns; iexists _; isplitr
      swap; · iexact H2
      ipureintro; exact pieceC_o2 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _ _ _
    · unfold owns; iexists _; isplitr
      swap; · iexact H3
      ipureintro; exact pieceC_o3 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _ _ _
  · rw [Dat.leavesExact_idle (dats m 0 c) 2 t (idleAt0_2 t (fun h => h1 ((hcond0_1 t).mp h))) (noFlush0_2 t (fun h => h1 ((hcond0_1 t).mp h)))]
    rw [Dat.leavesExact_idle (dats m 0 c) 3 t (idleAt0_3 t (fun h => h1 ((hcond0_1 t).mp h))) (noFlush0_3 t (fun h => h1 ((hcond0_1 t).mp h)))]
    by_cases h0 : t.val % 8 = 0
    · rw [acc_first m c t h0]; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact pieceA_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _
            · unfold owns; iexists _; isplitr
              swap; · iexact HS1
              ipureintro; exact pieceA_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _
          iexact Hg
        isplitl [Ho]; · iexact Ho
        isplitl [H0]; · iexact H0
        isplitl [H1]; · iexact H1
        isplitl [H2]; · iexists _; iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact pieceA_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _
            · unfold owns; iexists _; isplitr
              swap; · iexact HS1
              ipureintro; exact pieceA_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _
          iexact Hg
        isplitl [Ho]; · iexact Ho
        isplitl [H0]; · iexact H0
        isplitl [H1]; · iexact H1
        isplitl [H2]; · iexists _; iexact H2
        iexists _; iexact H3
    · have hz : t.val ≠ 0 := fun h => h0 (by rw [h])
      rw [acc_next m c t h0]; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact pieceB_s0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _ _ _
          · unfold owns; iexists _; isplitr
            swap; · iexact HS1
            ipureintro; exact pieceB_s1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ _ _ _ _ _
        iexact Hg
      isplitl [Ho]; · iexact Ho
      isplitl [H0]; · iexact H0
      isplitl [H1]; · iexact H1
      isplitl [H2]; · iexists _; iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run of the whole program -/

set_option backward.isDefEq.respectTransparency.types false in
/-- Every weakly fair execution of the program terminates without a fault, each of the grid's four arrays ending at
    what the grid points wrote back and every other buffer as the host operations after the grid leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to its end without a fault and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.KI.Blocks.lean ====
/-
  The blocks the grid points read, by coordinates: grid point t (cloud t / 8, tile t % 8) reads rows 512·(t % 8) … of
  cloud t / 8 of the first augmented array and the whole of cloud t / 8 of the second; and where each window's block
  sits in its array.
-/
import proofs.«166173_j25563645346662_2_alg».proof.Proof.KI.Frame
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem cfgN : cfg0.N = 128 := N_0

/-- The cloud a grid point works on, -/
def bOf (t : Fin cfg0.N) : Fin 16 := ⟨t.val / 8, by have := t.isLt; have := cfgN; omega⟩
/-- and the row of that cloud that row `p` of the point's tile is. -/
def nOf (t : Fin cfg0.N) (p : Fin 512) : Fin 4096 := ⟨512 * (t.val % 8) + p.val, by have := p.isLt; omega⟩

/-- The block indices of the four windows at a grid point, decided over the grid. -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 8 ∧ win0_3.index t (1 : Fin 3) = 0 ∧ win0_3.index t (2 : Fin 3) = 0 :=
  (by decide +kernel : ∀ t : Fin grid0.N, _)

/-- Entry (p, k) of the first window's block at point `t` is entry (cloud, row, k) of the first augmented array. -/
theorem iblk0_apply (c : Dev nD) (t : Fin cfg0.N) (p : Fin 512) (k : Fin 5) :
    (iblk m c 0 t : Vec F S1x512x5 .f32) (ix3 (0 : Fin 1) p k)
      = (V m c main_v10 : S16x4096x5.Idx → Elt F .f32) (ix3 (bOf t) (nOf t p) k) := by
  obtain ⟨e0, e1, e2⟩ := idx0 t
  unfold iblk
  rw [View.read_apply]
  show (V m c main_v10 : S16x4096x5.Idx → Elt F .f32) _ = _
  refine congrArg _ ?_
  funext a; apply Fin.ext
  match a with
  | ⟨0, _⟩ => show win0_0.index t (0 : Fin 3) * 1 + 1 * ((0 : Fin 1) : ℕ) = t.val / 8; simp only [Fin.val_zero]; omega
  | ⟨1, _⟩ => show win0_0.index t (1 : Fin 3) * 512 + 1 * p.val = 512 * (t.val % 8) + p.val; omega
  | ⟨2, _⟩ => show win0_0.index t (2 : Fin 3) * 5 + 1 * k.val = k.val; omega

/-- Entry (k, q) of the second window's block at point `t` is entry (cloud, k, q) of the second augmented array. -/
theorem iblk1_apply (c : Dev nD) (t : Fin cfg0.N) (k : Fin 5) (q : Fin 4096) :
    (iblk m c 1 t : Vec F S1x5x4096 .f32) (ix3 (0 : Fin 1) k q)
      = (V m c main_v14 : S16x5x4096.Idx → Elt F .f32) (ix3 (bOf t) k q) := by
  obtain ⟨e0, e1, e2⟩ := idx1 t
  unfold iblk
  rw [View.read_apply]
  show (V m c main_v14 : S16x5x4096.Idx → Elt F .f32) _ = _
  refine congrArg _ ?_
  funext a; apply Fin.ext
  match a with
  | ⟨0, _⟩ => show win0_1.index t (0 : Fin 3) * 1 + 1 * ((0 : Fin 1) : ℕ) = t.val / 8; simp only [Fin.val_zero]; omega
  | ⟨1, _⟩ => show win0_1.index t (1 : Fin 3) * 5 + 1 * k.val = k.val; omega
  | ⟨2, _⟩ => show win0_1.index t (2 : Fin 3) * 4096 + 1 * q.val = q.val; omega

/-- An index of a result array lies in point `t`'s block iff each coordinate lies in the block's range. -/
theorem mem_blk2 (t : Fin cfg0.N) (i : S16x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v15_0).slice (win0_2.rect t)).set ↔ _
  rw [View.set_slice_whole, Rect.mem_set_unit]
  exact Iff.rfl
theorem mem_blk3 (t : Fin cfg0.N) (i : S16x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v15_1).slice (win0_3.rect t)).set ↔ _
  rw [View.set_slice_whole, Rect.mem_set_unit]
  exact Iff.rfl

/-- The last tile of cloud `b`, as a grid point. -/
def tLast (b : Fin 16) : Fin cfg0.N := ⟨8 * b.val + 7, by have := b.isLt; rw [cfgN]; omega⟩

/-- Every index of a result array lies in the block written back at the last tile of its cloud. -/
theorem cover2 (i : S16x1x128.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 128 := (i 2).isLt
  refine ⟨tLast ⟨(i 0).val, h0⟩, (flush0_2 _).mpr (by show (8 * (i 0).val + 7) % 8 = 7; omega), ?_⟩
  rw [mem_blk2]
  obtain ⟨e0, e1, e2⟩ := idx2 (tLast ⟨(i 0).val, h0⟩)
  have ht : (tLast ⟨(i 0).val, h0⟩).val = 8 * (i 0).val + 7 := rfl
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 128 ≤ (i 2).val ∧ (i 2).val < win0_2.index _ (2 : Fin 3) * 128 + 128; omega
theorem cover3 (i : S16x1x128.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 128 := (i 2).isLt
  refine ⟨tLast ⟨(i 0).val, h0⟩, (flush0_3 _).mpr (by show (8 * (i 0).val + 7) % 8 = 7; omega), ?_⟩
  rw [mem_blk3]
  obtain ⟨e0, e1, e2⟩ := idx3 (tLast ⟨(i 0).val, h0⟩)
  have ht : (tLast ⟨(i 0).val, h0⟩).val = 8 * (i 0).val + 7 := rfl
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 128 ≤ (i 2).val ∧ (i 2).val < win0_3.index _ (2 : Fin 3) * 128 + 128; omega

/-- The first coordinate of an index of point `t`'s block of a result array is the point's cloud. -/
theorem emb2_zero (t : Fin cfg0.N) (y : S1x1x128.Idx) : ((((cfg0.win 2).blk t).view.emb y) 0 : Fin 16) = bOf t := by
  obtain ⟨e0, e1, e2⟩ := idx2 t
  apply Fin.ext
  have hy : (y 0).val < 1 := (y 0).isLt
  show win0_2.index t (0 : Fin 3) * 1 + 1 * (y 0).val = t.val / 8; omega
theorem emb3_zero (t : Fin cfg0.N) (y : S1x1x128.Idx) : ((((cfg0.win 3).blk t).view.emb y) 0 : Fin 16) = bOf t := by
  obtain ⟨e0, e1, e2⟩ := idx3 t
  apply Fin.ext
  have hy : (y 0).val < 1 := (y 0).isLt
  show win0_3.index t (0 : Fin 3) * 1 + 1 * (y 0).val = t.val / 8; omega

end Cert.KernelIdeal.Fr

end
-- ==== Proof.PayValueA.lean ====
/-
  The kernel body's stored values read at one index, at the extended reals: the two initial fills (the zero and the
  +infinity splat) and the lane broadcast of the 1x1 accumulator.
-/
import proofs.«166173_j25563645346662_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.ChamferPay

open Idealize.ShloMosaic Idealize.ShloMosaic.ValueIdx Cert.KernelIdeal Cert.KernelIdeal.Gen

/-- The binary32 pattern of +infinity is the top extended real. -/
theorem ofBits_posInf_f32 : Ideal.ofBits .f32 0x7F800000#32 = ⊤ := by simp [Ideal.ofBits, Ideal.ieee]

/-- The initial fill of the 1x1 accumulator is zero. -/
theorem pay1_apply : k0_pay1 (F := Ideal) (ix2 (0 : Fin 1) (0 : Fin 1)) = 0 := by
  unfold k0_pay1
  rw [shapeCast_self]
  exact Ideal.ofBits_zero_f32

/-- The initial fill of the 1x4096 running minimum is +infinity. -/
theorem pay2_apply (q : Fin 4096) : k0_pay2 (F := Ideal) (ix2 (0 : Fin 1) q) = ⊤ := by
  unfold k0_pay2
  rw [shapeCast_self]
  exact ofBits_posInf_f32

/-- The 1x1 accumulator broadcast along the 128 lanes reads the accumulator at every lane. -/
theorem pay6_apply (v : Vec Ideal S1x1 .f32) (l : Fin 128) :
    k0_pay6 v (ix3 (0 : Fin 1) (0 : Fin 1) l) = v (ix2 (0 : Fin 1) (0 : Fin 1)) := by
  unfold k0_pay6
  rw [shapeCast_self]
  refine (broadcastTo_apply _ _ _ (ix3 (0 : Fin 1) (0 : Fin 1) (0 : Fin 1)) ?_).trans ?_
  · intro a
    match a with
    | ⟨0, _⟩ => rfl
    | ⟨1, _⟩ => rfl
    | ⟨2, _⟩ => rfl
  · refine shapeCast_apply _ _ _ (ix2 (0 : Fin 1) (0 : Fin 1)) ?_
    rfl

end Cert.ChamferPay

end
-- ==== Proof.PayValueB.lean ====
/-
  The kernel body's 512 x 4096 tile of products read at one index, at the extended reals: the contraction of the
  512 x 5 block with the 5 x 4096 block into the zero accumulator is, at (p, q), the sum over the five columns k of
  (left block at (p, k)) times (right block at (k, q)).
-/
import proofs.«166173_j25563645346662_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ChamferPay

open Idealize.ShloMosaic Idealize.ShloMosaic.ValueIdx Cert.KernelIdeal Cert.KernelIdeal.Gen

/-- The contraction's dimension numbers: left axis 1 against right axis 0, no batch axis. -/
abbrev DD := dot_S512x5_S5x4096_S512x4096_1_0_0_1_n_n

/-- The left operand's row is the output's row. -/
theorem lhsIdx_row (i : S512x4096.Idx) (k : DD.contr.Idx) : (DD.lhsIdx i k 0).val = (i 0).val := by
  unfold DotDims.lhsIdx
  rw [dif_neg (show ¬(0 : Fin S512x5.rank) ∈ DD.lhsBatch by decide),
    dif_pos (show (0 : Fin S512x5.rank) ∈ DD.lhsNonContracting by decide)]
  rfl

/-- The left operand's column is the contraction coordinate. -/
theorem lhsIdx_col (i : S512x4096.Idx) (k : DD.contr.Idx) : (DD.lhsIdx i k 1).val = (k ⟨0, by decide⟩).val :=
  DD.lhsIdx_val_of_single rfl i k

/-- The right operand's row is the contraction coordinate. -/
theorem rhsIdx_row (i : S512x4096.Idx) (k : DD.contr.Idx) : (DD.rhsIdx i k 0).val = (k ⟨0, by decide⟩).val :=
  DD.rhsIdx_val_of_single rfl i k

/-- The right operand's column is the output's column. -/
theorem rhsIdx_col (i : S512x4096.Idx) (k : DD.contr.Idx) : (DD.rhsIdx i k 1).val = (i 1).val := by
  unfold DotDims.rhsIdx
  rw [dif_neg (show ¬(1 : Fin S5x4096.rank) ∈ DD.rhsBatch by decide),
    dif_pos (show (1 : Fin S5x4096.rank) ∈ DD.rhsNonContracting by decide)]
  rfl

/-- The tile of products at (p, q): the five-term sum. -/
theorem pay3_apply (x0 : Vec Ideal S1x512x5 .f32) (x1 : Vec Ideal S1x5x4096 .f32) (p : Fin 512) (q : Fin 4096) :
    k0_pay3 x0 x1 (ix2 p q) = ∑ k : Fin 5, x0 (ix3 (0 : Fin 1) p k) * x1 (ix3 (0 : Fin 1) k q) := by
  unfold k0_pay3
  simp only [matmul]
  rw [Ideal.matmul_constant_zero_apply, ← Equiv.sum_comp (contrEquiv1 DD 5 rfl rfl).symm]
  refine Finset.sum_congr rfl fun k _ => ?_
  have hk := contrEquiv1_symm_val DD 5 rfl rfl k
  have el : DD.lhsIdx (ix2 p q) ((contrEquiv1 DD 5 rfl rfl).symm k) = ix2 p k := funext fun a => Fin.ext (by
    match a with
    | ⟨0, _⟩ => exact lhsIdx_row _ _
    | ⟨1, _⟩ => exact (lhsIdx_col _ _).trans hk)
  have er : DD.rhsIdx (ix2 p q) ((contrEquiv1 DD 5 rfl rfl).symm k) = ix2 k q := funext fun a => Fin.ext (by
    match a with
    | ⟨0, _⟩ => exact (rhsIdx_row _ _).trans hk
    | ⟨1, _⟩ => exact rhsIdx_col _ _)
  rw [el, er, shapeCast_1ab_ab_apply, shapeCast_1ab_ab_apply]

end Cert.ChamferPay

end
-- ==== Proof.PayValueC.lean ====
/-
  Reductions of the kernel body read at one index, at the extended reals: a minimum taken along one axis of a matrix
  from +infinity is the infimum over that axis's coordinates; a sum along one axis from zero is the sum over them; a
  vector laid out as a column.
-/
import proofs.«166173_j25563645346662_2_alg».proof.Proof.PayValueB

noncomputable section

open scoped BigOperators

namespace Cert.ChamferPay

open Idealize.ShloMosaic Idealize.ShloMosaic.ValueIdx Cert.KernelIdeal Cert.KernelIdeal.Gen

/-- The binary32 pattern of +infinity is the top extended real. -/
theorem ofBits_posInf : Ideal.ofBits .f32 0x7F800000#32 = ⊤ := by simp [Ideal.ofBits, Ideal.ieee]

/-- Folding the minimum from the top element over a finite set is the set's infimum. -/
theorem fold_min_top_eq_inf {ι : Type} (s : Finset ι) (g : ι → EReal) : s.fold min ⊤ g = s.inf g := by
  induction s using Finset.cons_induction with
  | empty => simp
  | cons a s ha ih => rw [Finset.fold_cons, Finset.inf_cons, ih]

/-- A minimum reduction over ONE axis, at the extended reals: the fold of the minimum from the accumulator's value over
    that axis's coordinates. -/
theorem multiReduction_minimumf_single {s t : Shape} {a : Fin s.rank} (src : FVec Ideal s .f32) (acc : BitVec 32)
    (h : s.Reduces [a] t) (hφ : FKind.Formats .f32) (hacc : acc = FKind.minimumf.neutral .f32 hφ) (j : t.Idx) :
    multiReduction .minimumf [a] t src acc h hφ hacc j
      = (Finset.univ : Finset (Fin (s.size a))).fold min (Ideal.ofBits .f32 acc) (src ∘ h.lift j) := by
  rw [multiReduction_minimumf_eq_fold]; exact h.fold_filter_drop_single _ _ src j

/-- The minimum along the rows' entries (axis 1) of a 512 x 4096 matrix, from +infinity, at row p: the infimum over the
    4096 columns. -/
theorem minRows_apply (X : FVec Ideal S512x4096 .f32) (hφ : FKind.Formats .f32)
    (hacc : (0x7F800000#32 : BitVec 32) = FKind.minimumf.neutral .f32 hφ) (p : Fin 512) :
    multiReduction .minimumf [1] S512 X 0x7F800000#32 reduces_S512x4096_S512 hφ hacc (ix1 p)
      = Finset.univ.inf fun q : Fin 4096 => X (ix2 p q) := by
  refine (multiReduction_minimumf_single X _ reduces_S512x4096_S512 hφ hacc (ix1 p)).trans ?_
  rw [ofBits_posInf]
  refine (fold_min_top_eq_inf _ _).trans ?_
  show (Finset.univ : Finset (Fin 4096)).inf _ = _
  refine congrArg (Finset.univ : Finset (Fin 4096)).inf (funext fun q => ?_)
  refine congrArg X (funext fun c => Fin.ext ?_)
  match c with
  | ⟨0, _⟩ => rfl
  | ⟨1, _⟩ => rfl

/-- The minimum down the columns (axis 0) of a 512 x 4096 matrix, from +infinity, at column q: the infimum over the
    512 rows. -/
theorem minCols_apply (X : FVec Ideal S512x4096 .f32) (hφ : FKind.Formats .f32)
    (hacc : (0x7F800000#32 : BitVec 32) = FKind.minimumf.neutral .f32 hφ) (q : Fin 4096) :
    multiReduction .minimumf [0] S4096 X 0x7F800000#32 reduces_S512x4096_S4096 hφ hacc (ix1 q)
      = Finset.univ.inf fun p : Fin 512 => X (ix2 p q) := by
  refine (multiReduction_minimumf_single X _ reduces_S512x4096_S4096 hφ hacc (ix1 q)).trans ?_
  rw [ofBits_posInf]
  refine (fold_min_top_eq_inf _ _).trans ?_
  show (Finset.univ : Finset (Fin 512)).inf _ = _
  refine congrArg (Finset.univ : Finset (Fin 512)).inf (funext fun p => ?_)
  refine congrArg X (funext fun c => Fin.ext ?_)
  match c with
  | ⟨0, _⟩ => rfl
  | ⟨1, _⟩ => rfl

/-- A vector of 512 entries laid out as a 512 x 1 column reads, at (p, 0), the vector at p. -/
theorem shapeCast_col_apply (x : FVec Ideal S512 .f32) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum down the one column of a 512 x 1 matrix, from zero: the sum over the 512 rows. -/
theorem sumCol_apply (X : FVec Ideal S512x1 .f32) (hφ : FKind.Formats .f32)
    (hacc : (0x00000000#32 : BitVec 32) = FKind.add.neutral .f32 hφ) (u : Fin 1) :
    multiReduction .add [0] S1 X 0x00000000#32 reduces_S512x1_S1 hφ hacc (ix1 u)
      = ∑ p : Fin 512, X (ix2 p (0 : Fin 1)) := by
  refine (Ideal.multiReduction_add_single X _ reduces_S512x1_S1 hφ hacc (ix1 u)).trans ?_
  show ∑ p : Fin 512, _ = _
  refine Finset.sum_congr rfl fun p _ => ?_
  refine congrArg X (funext fun c => Fin.ext ?_)
  match c with
  | ⟨0, _⟩ => rfl
  | ⟨1, _⟩ => show (u : Nat) = 0; omega

/-- The sum along the one row of a 1 x 4096 matrix, from zero: the sum over the 4096 columns. -/
theorem sumRow_apply (X : FVec Ideal S1x4096 .f32) (hφ : FKind.Formats .f32)
    (hacc : (0x00000000#32 : BitVec 32) = FKind.add.neutral .f32 hφ) (u : Fin 1) :
    multiReduction .add [1] S1 X 0x00000000#32 reduces_S1x4096_S1 hφ hacc (ix1 u)
      = ∑ q : Fin 4096, X (ix2 (0 : Fin 1) q) := by
  refine (Ideal.multiReduction_add_single X _ reduces_S1x4096_S1 hφ hacc (ix1 u)).trans ?_
  show ∑ q : Fin 4096, _ = _
  refine Finset.sum_congr rfl fun q _ => ?_
  refine congrArg X (funext fun c => Fin.ext ?_)
  match c with
  | ⟨0, _⟩ => show (u : Nat) = 0; omega
  | ⟨1, _⟩ => rfl

end Cert.ChamferPay

end
-- ==== Proof.PayValueD.lean ====
/-
  The kernel body's accumulator updates and final stores read at one index, at the extended reals: the 1x1 accumulator
  gains the sum over the tile's 512 rows of each row's least entry; the 1x4096 running minimum is lowered by each
  column's least entry over the tile; the final store broadcasts, along the 128 lanes, the sum of the 4096 running
  minima.
-/
import proofs.«166173_j25563645346662_2_alg».proof.Proof.PayValueC

noncomputable section

open scoped BigOperators

namespace Cert.ChamferPay

open Idealize.ShloMosaic Idealize.ShloMosaic.ValueIdx Cert.KernelIdeal Cert.KernelIdeal.Gen

/-- The updated 1x1 accumulator: its old value plus, summed over the tile's rows, the least entry of the row. -/
theorem pay4_apply (x0 : Vec Ideal S1x512x5 .f32) (x1 : Vec Ideal S1x5x4096 .f32) (s : Vec Ideal S1x1 .f32) :
    k0_pay4 x0 x1 s (ix2 (0 : Fin 1) (0 : Fin 1))
      = s (ix2 (0 : Fin 1) (0 : Fin 1))
        + ∑ p : Fin 512, Finset.univ.inf (fun q : Fin 4096 => k0_pay3 x0 x1 (ix2 p q)) := by
  unfold k0_pay4
  rw [shapeCast_self, addf_apply]
  refine congrArg (fun z => s (ix2 (0 : Fin 1) (0 : Fin 1)) + z) ?_
  refine (shapeCast_a_1a_apply _ _ 0 0).trans ?_
  refine (sumCol_apply _ _ _ 0).trans ?_
  refine Finset.sum_congr rfl fun p _ => ?_
  refine (shapeCast_col_apply _ _ p 0).trans ?_
  exact minRows_apply _ _ _ p

/-- The updated running minimum at column q: the lesser of its old value and the least entry of the tile's column. -/
theorem pay5_apply (x0 : Vec Ideal S1x512x5 .f32) (x1 : Vec Ideal S1x5x4096 .f32) (s : Vec Ideal S1x4096 .f32)
    (q : Fin 4096) :
    k0_pay5 x0 x1 s (ix2 (0 : Fin 1) q)
      = min (s (ix2 (0 : Fin 1) q)) (Finset.univ.inf fun p : Fin 512 => k0_pay3 x0 x1 (ix2 p q)) := by
  unfold k0_pay5
  rw [shapeCast_self, minimumf_apply]
  refine congrArg (fun z => min (s (ix2 (0 : Fin 1) q)) z) ?_
  refine (shapeCast_a_1a_apply _ _ 0 q).trans ?_
  exact minCols_apply _ _ _ q

/-- The second final store: at every lane, the sum of the 4096 running minima. -/
theorem pay7_apply (v : Vec Ideal S1x4096 .f32) (l : Fin 128) :
    k0_pay7 v (ix3 (0 : Fin 1) (0 : Fin 1) l) = ∑ q : Fin 4096, v (ix2 (0 : Fin 1) q) := by
  unfold k0_pay7
  rw [shapeCast_self]
  refine (broadcastTo_apply _ _ _ (ix3 (0 : Fin 1) (0 : Fin 1) (0 : Fin 1)) ?_).trans ?_
  · intro a
    match a with
    | ⟨0, _⟩ => rfl
    | ⟨1, _⟩ => rfl
    | ⟨2, _⟩ => rfl
  refine (shapeCast_apply _ _ _ (ix2 (0 : Fin 1) (0 : Fin 1)) rfl).trans ?_
  refine (shapeCast_a_1a_apply _ _ 0 0).trans ?_
  exact sumRow_apply v _ _ 0

end Cert.ChamferPay

end
-- ==== Proof.ChainFold.lean ====
/-
  Two accumulations over the eight tiles of a cloud, as the kernel performs them — a sum started from zero and a
  minimum started from +inf, each continued tile after tile — are the sum and the infimum over the eight tiles.
-/
import Mathlib

noncomputable section

open scoped BigOperators

namespace Cert.ChamferChain

/-- A sum started at zero and continued term after term. -/
def chainSum (P : ℕ → EReal) : ℕ → EReal
  | 0 => 0 + P 0
  | j + 1 => chainSum P j + P (j + 1)

/-- A minimum started at +inf and continued term after term. -/
def chainMin (M : ℕ → EReal) : ℕ → EReal
  | 0 => min ⊤ (M 0)
  | j + 1 => min (chainMin M j) (M (j + 1))

theorem chainSum_eq (P : ℕ → EReal) (j : ℕ) : chainSum P j = ∑ k ∈ Finset.range (j + 1), P k := by
  induction j with
  | zero => simp [chainSum]
  | succ j ih => rw [chainSum, ih, Finset.sum_range_succ (n := j + 1)]

theorem chainSum_seven (P : ℕ → EReal) : chainSum P 7 = ∑ j : Fin 8, P j.val := by
  rw [chainSum_eq, Finset.sum_range]

theorem chainMin_eq (M : ℕ → EReal) (j : ℕ) : chainMin M j = (Finset.range (j + 1)).inf M := by
  induction j with
  | zero => simp [chainMin]
  | succ j ih =>
    rw [chainMin, ih, Finset.range_add_one (n := j + 1), Finset.inf_insert, min_comm]

theorem chainMin_seven (M : ℕ → EReal) : chainMin M 7 = Finset.univ.inf (fun j : Fin 8 => M j.val) := by
  rw [chainMin_eq]
  apply le_antisymm
  · exact Finset.le_inf fun j _ => Finset.inf_le (Finset.mem_range.mpr j.isLt)
  · exact Finset.le_inf fun k hk =>
      Finset.inf_le (f := fun j : Fin 8 => M j.val) (Finset.mem_univ ⟨k, Finset.mem_range.mp hk⟩)

end Cert.ChamferChain

end
-- ==== Proof.SumRegroup.lean ====
/-
  Regrouping a sum, or an infimum, over 4096 points as eight consecutive tiles of 512 points: the point with number
  512 j + p is point p of tile j, and every point is of that form exactly once.
-/
import Mathlib

open scoped BigOperators

namespace Cert.ChamferRegroup

/-- Tile j, place p  <->  point 512 j + p. -/
def tileEquiv : Fin 8 × Fin 512 ≃ Fin 4096 where
  toFun x := ⟨512 * x.1.val + x.2.val, by have := x.1.isLt; have := x.2.isLt; omega⟩
  invFun n := (⟨n.val / 512, by have := n.isLt; omega⟩, ⟨n.val % 512, by omega⟩)
  left_inv x := by
    obtain ⟨j, p⟩ := x
    have hj := j.isLt
    have hp := p.isLt
    refine Prod.ext (Fin.ext ?_) (Fin.ext ?_)
    · show (512 * j.val + p.val) / 512 = j.val
      omega
    · show (512 * j.val + p.val) % 512 = p.val
      omega
  right_inv n := by
    refine Fin.ext ?_
    show 512 * (n.val / 512) + n.val % 512 = n.val
    omega

/-- The sum over the eight tiles of the sums over a tile is the sum over all points. -/
theorem sum_tiles (f : Fin 4096 → EReal) :
    ∑ j : Fin 8, ∑ p : Fin 512, f ⟨512 * j.val + p.val, by have := j.isLt; have := p.isLt; omega⟩ = ∑ n : Fin 4096, f n := by
  rw [← Equiv.sum_comp tileEquiv f, Fintype.sum_prod_type]
  rfl

/-- The infimum over the eight tiles of the infima over a tile is the infimum over all points. -/
theorem inf_tiles (f : Fin 4096 → EReal) :
    Finset.univ.inf (fun j : Fin 8 => Finset.univ.inf fun p : Fin 512 =>
      f ⟨512 * j.val + p.val, by have := j.isLt; have := p.isLt; omega⟩) = Finset.univ.inf f := by
  have h1 : Finset.univ.inf f = (Finset.univ : Finset (Fin 8 × Fin 512)).inf (f ∘ tileEquiv) := by
    rw [← Finset.map_univ_equiv tileEquiv, Finset.inf_map]
    rfl
  rw [h1, ← Finset.univ_product_univ, Finset.inf_product_left]
  rfl

end Cert.ChamferRegroup
-- ==== Proof.TileChain.lean ====
/-
  The two accumulations over the eight tiles of 512 points, taken of a family D of numbers indexed by a point n of one
  cloud and a point q of the other: the running sum, over the tiles, of the sums over a tile's points of the least
  D n q over q is the sum over all 4096 points n; the running minimum, over the tiles, of the least D n q over a
  tile's points n is the least over all 4096 points n.  Point p of tile j is the point with number 512 j + p.
-/
import proofs.«166173_j25563645346662_2_alg».proof.Proof.ChainFold
import proofs.«166173_j25563645346662_2_alg».proof.Proof.SumRegroup

noncomputable section

open scoped BigOperators

namespace Cert.ChamferTile

/-- Point p of tile j, as a point of the cloud (the number 512 j + p, reduced modulo 4096 so that it is a point for
    every natural j; for the eight tiles nothing is reduced: `nn_of_lt`). -/
def nn (j : ℕ) (p : Fin 512) : Fin 4096 := ⟨(512 * j + p.val) % 4096, Nat.mod_lt _ (by norm_num)⟩

/-- Tile j's contribution to the first sum: over its points, the least D over the second cloud. -/
def P1 (D : Fin 4096 → Fin 4096 → EReal) (j : ℕ) : EReal :=
  ∑ p : Fin 512, Finset.univ.inf (fun q : Fin 4096 => D (nn j p) q)

/-- Tile j's contribution to the running minimum at q: the least D over the tile's points. -/
def M2 (D : Fin 4096 → Fin 4096 → EReal) (q : Fin 4096) (j : ℕ) : EReal :=
  Finset.univ.inf (fun p : Fin 512 => D (nn j p) q)

/-- For one of the eight tiles the point's number is 512 j + p itself. -/
theorem nn_of_lt (j : ℕ) (hj : j < 8) (p : Fin 512) :
    nn j p = ⟨512 * j + p.val, by have := p.isLt; omega⟩ := by
  have hp := p.isLt
  exact Fin.ext (Nat.mod_eq_of_lt (by omega))

/-- The running sum over the eight tiles is the sum over all points of the first cloud. -/
theorem rows_total (D : Fin 4096 → Fin 4096 → EReal) :
    Cert.ChamferChain.chainSum (P1 D) 7 = ∑ n : Fin 4096, Finset.univ.inf (fun q : Fin 4096 => D n q) := by
  rw [Cert.ChamferChain.chainSum_seven]
  refine Eq.trans ?_ (Cert.ChamferRegroup.sum_tiles (fun n => Finset.univ.inf fun q : Fin 4096 => D n q))
  refine Finset.sum_congr rfl fun j _ => ?_
  unfold P1
  refine Finset.sum_congr rfl fun p _ => ?_
  rw [nn_of_lt j.val j.isLt p]

/-- The running minimum over the eight tiles, at q, is the least D over all points of the first cloud. -/
theorem cols_total (D : Fin 4096 → Fin 4096 → EReal) (q : Fin 4096) :
    Cert.ChamferChain.chainMin (M2 D q) 7 = Finset.univ.inf (fun n : Fin 4096 => D n q) := by
  rw [Cert.ChamferChain.chainMin_seven]
  refine Eq.trans ?_ (Cert.ChamferRegroup.inf_tiles (fun n => D n q))
  refine congrArg (Finset.univ : Finset (Fin 8)).inf (funext fun j => ?_)
  unfold M2
  refine congrArg (Finset.univ : Finset (Fin 512)).inf (funext fun p => ?_)
  rw [nn_of_lt j.val j.isLt p]

end Cert.ChamferTile

end
-- ==== Proof.KI.Acc.lean ====
/-
  The kernel's two accumulators after each grid point.  The 128 grid points run cloud by cloud, eight tiles of 512
  points each.  At a cloud's first tile the running sum restarts from zero and the running column minima from +inf;
  at every other tile they continue from the point before.  Each point adds to the sum, over its tile's points, the
  least squared distance to the second cloud, and lowers each column minimum by the least squared distance over its
  tile's points.  Hence after point n the sum is the chain of the tile contributions of n's cloud up to tile n mod 8,
  and each column minimum is the chain of the tile minima likewise.
-/
import proofs.«166173_j25563645346662_2_alg».proof.Proof.KI.Blocks
import proofs.«166173_j25563645346662_2_alg».proof.Proof.PayValueA
import proofs.«166173_j25563645346662_2_alg».proof.Proof.PayValueD
import proofs.«166173_j25563645346662_2_alg».proof.Proof.ChainFold
import proofs.«166173_j25563645346662_2_alg».proof.Proof.TileChain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.ChamferPay Cert.ChamferChain Cert.ChamferTile

variable (m : (ℓ : Loc nD τ sig) → Buf (Elt Ideal) ℓ)

/-- Row p of grid point t's tile is point p of tile (t mod 8). -/
theorem nOf_eq (t : Fin cfg0.N) (p : Fin 512) : nOf t p = nn (t.val % 8) p :=
  (nn_of_lt (t.val % 8) (Nat.mod_lt _ (by norm_num)) p).symm

/-- One point's step of the running sum: the tile's contribution is added. -/
theorem step_sum (c : Dev nD) (D : Fin 16 → Fin 4096 → Fin 4096 → EReal)
    (hD : ∀ (t : Fin cfg0.N) (p : Fin 512) (q : Fin 4096),
      k0_pay3 (iblk m c 0 t) (iblk m c 1 t) (ix2 p q) = D (bOf t) (nOf t p) q)
    (t : Fin cfg0.N) (s : Vec Ideal S1x1 .f32) (j : ℕ) (hj : t.val % 8 = j) (v : EReal)
    (hv : s (ix2 (0 : Fin 1) (0 : Fin 1)) = v) :
    k0_pay4 (iblk m c 0 t) (iblk m c 1 t) s (ix2 (0 : Fin 1) (0 : Fin 1)) = v + P1 (D (bOf t)) j := by
  refine (pay4_apply (iblk m c 0 t) (iblk m c 1 t) s).trans ?_
  subst hj
  refine congrArg₂ (· + ·) hv ?_
  unfold P1
  refine Finset.sum_congr rfl fun p _ => congrArg (Finset.univ.inf) (funext fun q => ?_)
  exact (hD t p q).trans (congrArg (fun z => D (bOf t) z q) (nOf_eq t p))

/-- One point's step of a running column minimum: lowered by the tile's least entry of the column. -/
theorem step_min (c : Dev nD) (D : Fin 16 → Fin 4096 → Fin 4096 → EReal)
    (hD : ∀ (t : Fin cfg0.N) (p : Fin 512) (q : Fin 4096),
      k0_pay3 (iblk m c 0 t) (iblk m c 1 t) (ix2 p q) = D (bOf t) (nOf t p) q)
    (t : Fin cfg0.N) (s : Vec Ideal S1x4096 .f32) (q : Fin 4096) (j : ℕ) (hj : t.val % 8 = j) (v : EReal)
    (hv : s (ix2 (0 : Fin 1) q) = v) :
    k0_pay5 (iblk m c 0 t) (iblk m c 1 t) s (ix2 (0 : Fin 1) q) = min v (M2 (D (bOf t)) q j) := by
  refine (pay5_apply (iblk m c 0 t) (iblk m c 1 t) s q).trans ?_
  subst hj
  refine congrArg₂ min hv ?_
  unfold M2
  refine congrArg (Finset.univ.inf) (funext fun p => ?_)
  exact (hD t p q).trans (congrArg (fun z => D (bOf t) z q) (nOf_eq t p))

/-- After grid point n: the running sum and the running column minima are the chains, over the tiles of n's cloud up
    to tile n mod 8, of the tiles' contributions. -/
theorem acc_inv (c : Dev nD) (D : Fin 16 → Fin 4096 → Fin 4096 → EReal)
    (hD : ∀ (t : Fin cfg0.N) (p : Fin 512) (q : Fin 4096),
      k0_pay3 (iblk m c 0 t) (iblk m c 1 t) (ix2 p q) = D (bOf t) (nOf t p) q) :
    ∀ (n : ℕ) (hn : n < cfg0.N),
      (acc m c n hn).2 (ix2 (0 : Fin 1) (0 : Fin 1)) = chainSum (P1 (D (bOf ⟨n, hn⟩))) (n % 8)
      ∧ ∀ q : Fin 4096, (acc m c n hn).1 (ix2 (0 : Fin 1) q) = chainMin (M2 (D (bOf ⟨n, hn⟩)) q) (n % 8) := by
  intro n
  induction n with
  | zero =>
    intro hn
    exact ⟨step_sum m c D hD ⟨0, hn⟩ (k0_pay1 (F := Ideal)) 0 rfl 0 pay1_apply,
      fun q => step_min m c D hD ⟨0, hn⟩ (k0_pay2 (F := Ideal)) q 0 rfl ⊤ (pay2_apply q)⟩
  | succ n ih =>
    intro hn
    have ih := ih (Nat.lt_of_succ_lt hn)
    by_cases h0 : (n + 1) % 8 = 0
    · have e : acc m c (n + 1) hn
          = (k0_pay5 (iblk m c 0 ⟨n + 1, hn⟩) (iblk m c 1 ⟨n + 1, hn⟩) (k0_pay2 (F := Ideal)),
             k0_pay4 (iblk m c 0 ⟨n + 1, hn⟩) (iblk m c 1 ⟨n + 1, hn⟩) (k0_pay1 (F := Ideal))) := if_pos h0
      rw [h0]
      exact ⟨(congrArg (fun z => z.2 (ix2 (0 : Fin 1) (0 : Fin 1))) e).trans
          (step_sum m c D hD ⟨n + 1, hn⟩ (k0_pay1 (F := Ideal)) 0 h0 0 pay1_apply),
        fun q => (congrArg (fun z => z.1 (ix2 (0 : Fin 1) q)) e).trans
          (step_min m c D hD ⟨n + 1, hn⟩ (k0_pay2 (F := Ideal)) q 0 h0 ⊤ (pay2_apply q))⟩
    · have e : acc m c (n + 1) hn
          = (k0_pay5 (iblk m c 0 ⟨n + 1, hn⟩) (iblk m c 1 ⟨n + 1, hn⟩) (acc m c n (Nat.lt_of_succ_lt hn)).1,
             k0_pay4 (iblk m c 0 ⟨n + 1, hn⟩) (iblk m c 1 ⟨n + 1, hn⟩) (acc m c n (Nat.lt_of_succ_lt hn)).2) :=
        if_neg h0
      have hb : bOf ⟨n, Nat.lt_of_succ_lt hn⟩ = bOf ⟨n + 1, hn⟩ :=
        Fin.ext (by show n / 8 = (n + 1) / 8; omega)
      have hmod : (n + 1) % 8 = n % 8 + 1 := by omega
      rw [hb] at ih
      rw [hmod]
      exact ⟨(congrArg (fun z => z.2 (ix2 (0 : Fin 1) (0 : Fin 1))) e).trans
          (step_sum m c D hD ⟨n + 1, hn⟩ _ (n % 8 + 1) hmod _ ih.1),
        fun q => (congrArg (fun z => z.1 (ix2 (0 : Fin 1) q)) e).trans
          (step_min m c D hD ⟨n + 1, hn⟩ _ q (n % 8 + 1) hmod _ (ih.2 q))⟩

end Cert.KernelIdeal.Fr

end
-- ==== Proof.ChamferSpec.lean ====
/-
  The chamfer distance between two clouds of 4096 points in 3-space, for 16 pairs of clouds, written once as a
  function of the two coordinate arrays.  For a pair of clouds the squared distance of point `n` of the first to
  point `m` of the second is written in two ways: the expanded form |a|² + |b|² − 2 a·b, and the same number as one
  contraction over five "augmented" coordinates, (−2a, |a|², 1) against (b, 1, |b|²).  The two agree for real
  coordinates (distributivity; on the extended reals it can fail at infinities, hence the hypothesis).  The result is
  the sum over the first cloud of the distance to the nearest point of the second, plus the same with the clouds
  exchanged, each scaled by one, the total divided by 16.
-/
import Idealize.ShloMosaic.PureOps.Ideal
import Idealize.ShloMosaic.Lib.ValueIdx

noncomputable section

open scoped BigOperators

namespace Chamfer

open Idealize.ShloMosaic Idealize.ShloMosaic.ValueIdx

/-- The coordinate arrays: 16 clouds of 4096 points with 3 coordinates. -/
abbrev SPts : Shape := ⟨3, ![16, 4096, 3]⟩
/-- The scalar shape. -/
abbrev S0 : Shape := ⟨0, ![]⟩

/-- |point n of cloud b|². -/
def sq (x : FVec Ideal SPts .f32) (b : Fin 16) (n : Fin 4096) : EReal :=
  ∑ d : Fin 3, x (ix3 b n d) * x (ix3 b n d)

/-- The inner product of point `n` of cloud `b` of `x` with point `m` of cloud `b` of `y`. -/
def dot (x y : FVec Ideal SPts .f32) (b : Fin 16) (n m : Fin 4096) : EReal :=
  ∑ d : Fin 3, x (ix3 b n d) * y (ix3 b m d)

/-- The squared distance, expanded: |a|² + |b|² − 2 a·b. -/
def Dref (x y : FVec Ideal SPts .f32) (b : Fin 16) (n m : Fin 4096) : EReal :=
  (sq x b n + sq y b m) - ((2 : ℝ) : EReal) * dot x y b n m

/-- The first cloud's augmented coordinates: −2a, then |a|², then 1. -/
def Laug (x : FVec Ideal SPts .f32) (b : Fin 16) (n : Fin 4096) (k : Fin 5) : EReal :=
  if h : k.val < 3 then ((-2 : ℝ) : EReal) * x (ix3 b n ⟨k.val, h⟩) else if k.val = 3 then sq x b n else 1

/-- The second cloud's augmented coordinates: b, then 1, then |b|². -/
def Raug (y : FVec Ideal SPts .f32) (b : Fin 16) (k : Fin 5) (m : Fin 4096) : EReal :=
  if h : k.val < 3 then y (ix3 b m ⟨k.val, h⟩) else if k.val = 3 then 1 else sq y b m

/-- The squared distance as one contraction over the five augmented coordinates. -/
def Daug (x y : FVec Ideal SPts .f32) (b : Fin 16) (n m : Fin 4096) : EReal :=
  ∑ k : Fin 5, Laug x b n k * Raug y b k m

/-- Summed over every point of the first clouds: the least distance to a point of the second. -/
def S1 (D : Fin 16 → Fin 4096 → Fin 4096 → EReal) : EReal :=
  ∑ b : Fin 16, ∑ n : Fin 4096, Finset.univ.inf (fun m : Fin 4096 => D b n m)

/-- Summed over every point of the second clouds: the least distance to a point of the first. -/
def S2 (D : Fin 16 → Fin 4096 → Fin 4096 → EReal) : EReal :=
  ∑ b : Fin 16, ∑ m : Fin 4096, Finset.univ.inf (fun n : Fin 4096 => D b n m)

/-- The two sums, each scaled by the float one, added and divided by the float sixteen, as the scalar array the host
    operations produce (kept as one opaque term: both programs end with it). -/
def tail (s1 s2 : EReal) : FVec Ideal S0 .f32 :=
  Host.divf (F := Ideal)
    (addf (mulf (constant (F := Ideal) S0 .f32 0x3F800000#32) (fun _ => s1))
          (mulf (constant (F := Ideal) S0 .f32 0x3F800000#32) (fun _ => s2)))
    (constant (F := Ideal) S0 .f32 0x41800000#32)

/-- The chamfer value of a family of squared distances. -/
def total (D : Fin 16 → Fin 4096 → Fin 4096 → EReal) : FVec Ideal S0 .f32 := tail (S1 D) (S2 D)

end Chamfer

end
-- ==== Proof.HostTail.lean ====
/-
  The host operations after the region: each of the two result arrays [16,1,128] is cut to its entries (b, 0, 0),
  laid as a vector of 16, and summed from zero; the two sums are each multiplied by one, added, and divided by
  sixteen.  Read here as the shared closing term of the specification applied to the two sums over the 16 clouds.
-/
import proofs.«166173_j25563645346662_2_alg».proof.Proof.Gen.KernelIdeal.Launch
import proofs.«166173_j25563645346662_2_alg».proof.Proof.ChamferSpec
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

noncomputable section

namespace Cert.ChamferHost

open Cert.KernelIdeal Cert.KernelIdeal.Gen Idealize.ShloMosaic Idealize.ShloMosaic.TcCoe Idealize.SL.Sem
open Idealize.ShloMosaic.StableHlo Idealize.ShloMosaic.ValueIdx
open scoped BigOperators

/-- Entry b of the vector of 16 cut from a [16,1,128] array is the array's entry (b, 0, 0). -/
theorem slice_read (X : S16x1x128.Idx → EReal) (b : Fin 16) :
    shapeCast S16 (extractStridedSlice S16x1x1 ![0, 0, 0] X slices_S16x1x128_S16x1x1_0_0_0) shapeCasts_S16x1x1_S16 (ix1 b)
      = X (ix3 b 0 0) := by
  refine (shapeCast_apply _ _ (ix1 b) (ix3 b (0 : Fin 1) (0 : Fin 1)) ?_).trans ?_
  · rw [Shape.rowMajor_val_three, Shape.rowMajor_val_one]
    show (b.val * 1 + 0) * 1 + 0 = b.val
    omega
  · exact extractStridedSlice_apply _ _ _ _ (ix3 b (0 : Fin 1) (0 : Fin 128))
      (fun a => match a with
        | ⟨0, _⟩ => by show b.val = 0 + b.val; omega
        | ⟨1, _⟩ => rfl
        | ⟨2, _⟩ => rfl)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum from zero of the vector of 16 cut from a [16,1,128] array is the sum of the entries (b, 0, 0). -/
theorem sum_read (X : S16x1x128.Idx → EReal) :
    Host.reduceAdd (F := Ideal)
        (fun i => shapeCast S16 (extractStridedSlice S16x1x1 ![0, 0, 0] X slices_S16x1x128_S16x1x1_0_0_0)
          shapeCasts_S16x1x1_S16 i)
        (constant (F := Ideal) S_ .f32 0x00000000#32) reducesTo_S16_S_d0 h_S_
      = fun _ => ∑ b : Fin 16, X (ix3 b 0 0) := by
  funext j
  rw [hostReduceAdd_apply, Ideal.hostReduceAdd_total reducesTo_S16_S_d0 (fun b => b.elim0)]
  rw [constant_apply, Ideal.ofBits_zero_f32, zero_add, sum_idx1]
  refine Finset.sum_congr rfl fun b _ => ?_
  exact slice_read X b

/-- The host operations after the region leave, in the result buffer, the specification's closing term applied to
    the two sums over the 16 clouds of the entries (b, 0, 0) of the region's two result arrays. -/
theorem tail_apply (W : Valuation τ sig (Elt Ideal)) :
    StableHlo.after (hostOps1 (F := Ideal)) W (Proc.devRef .tc main_v25)
      = Chamfer.tail (∑ b : Fin 16, (W (Proc.devRef .tc main_v15_0) : S16x1x128.Idx → EReal) (ix3 b 0 0))
          (∑ b : Fin 16, (W (Proc.devRef .tc main_v15_1) : S16x1x128.Idx → EReal) (ix3 b 0 0)) := by
  have e : StableHlo.after (hostOps1 (F := Ideal)) W (Proc.devRef .tc main_v25)
      = Host.divf (F := Ideal)
          (addf (mulf (constant (F := Ideal) S_ .f32 0x3F800000#32)
                  (Host.reduceAdd (F := Ideal)
                    (fun i => shapeCast S16 (extractStridedSlice S16x1x1 ![0, 0, 0]
                      (W (Proc.devRef .tc main_v15_0) : S16x1x128.Idx → EReal) slices_S16x1x128_S16x1x1_0_0_0)
                      shapeCasts_S16x1x1_S16 i)
                    (constant (F := Ideal) S_ .f32 0x00000000#32) reducesTo_S16_S_d0 h_S_))
                (mulf (constant (F := Ideal) S_ .f32 0x3F800000#32)
                  (Host.reduceAdd (F := Ideal)
                    (fun i => shapeCast S16 (extractStridedSlice S16x1x1 ![0, 0, 0]
                      (W (Proc.devRef .tc main_v15_1) : S16x1x128.Idx → EReal) slices_S16x1x128_S16x1x1_0_0_0)
                      shapeCasts_S16x1x1_S16 i)
                    (constant (F := Ideal) S_ .f32 0x00000000#32) reducesTo_S16_S_d0 h_S_)))
          (constant (F := Ideal) S_ .f32 0x41800000#32) := by
    after_results_simp
    rfl
  rw [e, sum_read, sum_read]
  rfl

end Cert.ChamferHost

end
-- ==== Proof.KI.Result.lean ====
/-
  The program's final result read off its run: the scalar result is the specification's closing term applied to the
  two sums, over the 16 clouds, of the entries (b, 0, 0) of the two result arrays as the grid leaves them; the two
  argument arrays end as launched.
-/
import proofs.«166173_j25563645346662_2_alg».proof.Proof.KI.Frame
import proofs.«166173_j25563645346662_2_alg».proof.Proof.HostTail
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ) (ρ : Dev nD → PrngReg)

/-- What the result buffer holds after the host operations that follow the grid, from the two result arrays as the
    grid leaves them. -/
theorem W_main_v25 (c : Dev nD) :
    Pipeline.afterTail₀ cfgs (dats m) 0 (V0 m) [hostOps1] c main_v25
      = Chamfer.tail (∑ b : Fin 16, ((dats m 0 c).arrAt 2 cfg0.N : S16x1x128.Idx → EReal) (ix3 b 0 0))
          (∑ b : Fin 16, ((dats m 0 c).arrAt 3 cfg0.N : S16x1x128.Idx → EReal) (ix3 b 0 0)) := by
  unfold Pipeline.afterTail₀
  show StableHlo.after (hostOps1 (F := Ideal)) _ (Proc.devRef .tc main_v25) = _
  rw [Cert.ChamferHost.tail_apply]
  have e2 : Pipeline.withArrays (cfgs 0).spec c (V0 m c) (fun w => (dats m 0 c).arrAt w (cfgs 0).N)
      (Proc.devRef .tc main_v15_0) = (dats m 0 c).arrAt 2 cfg0.N :=
    Pipeline.withArrays_arr spec0 launch0.win.arr_inj c _ _ 2
  have e3 : Pipeline.withArrays (cfgs 0).spec c (V0 m c) (fun w => (dats m 0 c).arrAt w (cfgs 0).N)
      (Proc.devRef .tc main_v15_1) = (dats m 0 c).arrAt 3 cfg0.N :=
    Pipeline.withArrays_arr spec0 launch0.win.arr_inj c _ _ 3
  exact congrArg₂ Chamfer.tail (Finset.sum_congr rfl fun b _ => congrFun e2 _) (Finset.sum_congr rfl fun b _ => congrFun e3 _)

/-- Every weakly fair execution of the program terminates without a fault with the result buffer at the
    specification's closing term of the two sums over the result arrays, and the argument arrays as launched. -/
theorem result_run : θ_run defs (onTc (τ := τ) (main (F := Ideal))) ⟨m, fun _ => 0, ρ⟩ (fun r => ∀ c : Dev nD,
      r.2.mem ((c.tc : Thread nD τ).loc main_v25)
        = Chamfer.tail (∑ b : Fin 16, ((dats m 0 c).arrAt 2 cfg0.N : S16x1x128.Idx → EReal) (ix3 b 0 0))
            (∑ b : Fin 16, ((dats m 0 c).arrAt 3 cfg0.N : S16x1x128.Idx → EReal) (ix3 b 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v25 (Pipeline.mem_restRefs_of main_v25 (by decide) (by decide))).trans (W_main_v25 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Fr

end
-- ==== Proof.LibNary3.lean ====
/-
  A host operation with a literal family of THREE operands (a concatenate of three arrays): its result is its
  function applied to the three operands' contents, each read at its own reference — so that a fold of host
  operations can go on being rewritten through the operands.
-/
import Idealize.ShloMosaic.Lib.StableHlo.Run

noncomputable section

namespace Idealize.ShloMosaic.StableHlo

variable {τ : Topo} {sig : RefSig} {Val : EltTy → Type}
variable {x a b y : Ref sig .tc}

/-- The result of a three-operand operation at its own result buffer: the operation's function of the three
    operands' contents, `Fin.cons`-ed in order. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for use as a rewrite rule of one simplification pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.HostPre.lean ====
/-
  The host operations before the region, read at an index.  From the two coordinate arrays [16,4096,3] they build
  the first cloud's augmented coordinates [16,4096,5] — minus two times the coordinates, then the squared norm,
  then one — and the second cloud's, transposed to [16,5,4096] — the coordinates, then one, then the squared norm.
  Each is a concatenation of three arrays along the last axis; the squared norm is the sum from zero over the three
  coordinates of the squares, the ones and the factor minus two are broadcast constants.
-/
import proofs.«166173_j25563645346662_2_alg».proof.Proof.Gen.KernelIdeal.Launch
import proofs.«166173_j25563645346662_2_alg».proof.Proof.ChamferSpec
import proofs.«166173_j25563645346662_2_alg».proof.Proof.LibNary3
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ChamferHost

open Cert.KernelIdeal Cert.KernelIdeal.Gen Idealize.ShloMosaic Idealize.ShloMosaic.TcCoe Idealize.SL.Sem
open Idealize.ShloMosaic.StableHlo Idealize.ShloMosaic.ValueIdx
open scoped BigOperators

/-- The binary32 pattern 0xC0000000 is the real number minus two. -/
theorem ofBits_neg_two_f32 : Ideal.ofBits .f32 0xC0000000#32 = ((-2 : ℝ) : EReal) := by
  simp [Ideal.ofBits, Ideal.ieee, -EReal.coe_mul, -EReal.coe_neg]; norm_num

/-- A concatenation of a [16,4096,3] array and two [16,4096,1] arrays along the last axis, read at (b, n, k): the
    first array at (b, n, k) for k < 3, the second at (b, n, 0) for k = 3, the third at (b, n, 0) for k = 4. -/
theorem concat3_apply (A : S16x4096x3.Idx → EReal) (B C : S16x4096x1.Idx → EReal) (b : Fin 16) (n : Fin 4096) (k : Fin 5) :
    concatenate S16x4096x5 2 [⟨S16x4096x3, A⟩, ⟨S16x4096x1, B⟩, ⟨S16x4096x1, C⟩]
        concatenates_S16x4096x3_S16x4096x1_S16x4096x1_S16x4096x5_d2 (ix3 b n k)
      = if h : k.val < 3 then A (ix3 b n ⟨k.val, h⟩) else if k.val = 3 then B (ix3 b n 0) else C (ix3 b n 0) := by
  obtain ⟨kv, hkv⟩ := k
  by_cases h3 : kv < 3
  · rw [dif_pos h3]
    exact concatenate_apply_piece (t := S16x4096x5) (2 : Fin 3) [⟨S16x4096x3, A⟩, ⟨S16x4096x1, B⟩, ⟨S16x4096x1, C⟩]
      concatenates_S16x4096x3_S16x4096x1_S16x4096x1_S16x4096x5_d2 (ix3 b n ⟨kv, hkv⟩)
      0 (by show (0 : ℕ) < 3; omega) S16x4096x3 A rfl rfl 0 rfl (ix3 b n ⟨kv, h3⟩)
      (fun c hc => match c with
        | ⟨0, _⟩ => rfl
        | ⟨1, _⟩ => rfl
        | ⟨2, _⟩ => absurd rfl hc)
      (by show 0 + kv = kv; omega)
  · rw [dif_neg h3]
    by_cases h4 : kv = 3
    · rw [if_pos h4]
      exact concatenate_apply_piece (t := S16x4096x5) (2 : Fin 3) [⟨S16x4096x3, A⟩, ⟨S16x4096x1, B⟩, ⟨S16x4096x1, C⟩]
        concatenates_S16x4096x3_S16x4096x1_S16x4096x1_S16x4096x5_d2 (ix3 b n ⟨kv, hkv⟩)
        1 (by show (1 : ℕ) < 3; omega) S16x4096x1 B rfl rfl 3 rfl (ix3 b n (0 : Fin 1))
        (fun c hc => match c with
          | ⟨0, _⟩ => rfl
          | ⟨1, _⟩ => rfl
          | ⟨2, _⟩ => absurd rfl hc)
        (by show 3 + 0 = kv; omega)
    · rw [if_neg h4]
      exact concatenate_apply_piece (t := S16x4096x5) (2 : Fin 3) [⟨S16x4096x3, A⟩, ⟨S16x4096x1, B⟩, ⟨S16x4096x1, C⟩]
        concatenates_S16x4096x3_S16x4096x1_S16x4096x1_S16x4096x5_d2 (ix3 b n ⟨kv, hkv⟩)
        2 (by show (2 : ℕ) < 3; omega) S16x4096x1 C rfl rfl 4 rfl (ix3 b n (0 : Fin 1))
        (fun c hc => match c with
          | ⟨0, _⟩ => rfl
          | ⟨1, _⟩ => rfl
          | ⟨2, _⟩ => absurd rfl hc)
        (by show 4 + 0 = kv; omega)

/-- A constant broadcast to [16,4096] and then to [16,4096,1] reads the constant's value everywhere. -/
theorem bcast_const_apply (w : BitVec 32) (j : S16x4096x1.Idx) :
    broadcastInDim S16x4096x1 ![0, 1] bcast_S16x4096_S16x4096x1_0_1
        (broadcastInDim S16x4096 ![] bcast_S_S16x4096 (constant (F := Ideal) S_ .f32 w)) j
      = Ideal.ofBits .f32 w := rfl

/-- The sum from zero over the three coordinates of the squares, broadcast to [16,4096,1], read at (b, n, 0): the
    squared norm of point n of cloud b. -/
theorem bcast_sq_apply (X : S16x4096x3.Idx → EReal) (b : Fin 16) (n : Fin 4096) :
    broadcastInDim S16x4096x1 ![0, 1] bcast_S16x4096_S16x4096x1_0_1
        (Host.reduceAdd (F := Ideal) (mulf (F := Ideal) (φ := .f32) X X) (constant (F := Ideal) S_ .f32 0x00000000#32)
          reducesTo_S16x4096x3_S16x4096_d2 h_S_) (ix3 b n (0 : Fin 1))
      = Chamfer.sq X b n := by
  refine (broadcastInDim_apply _ _ _ _ (ix2 b n) (fun a => match a with | ⟨0, _⟩ => rfl | ⟨1, _⟩ => rfl)).trans ?_
  rw [hostReduceAdd_apply, Ideal.hostReduceAdd_single reducesTo_S16x4096x3_S16x4096_d2 (by decide)]
  rw [constant_apply, Ideal.ofBits_zero_f32, zero_add]
  unfold Chamfer.sq
  refine Finset.sum_congr rfl fun d _ => ?_
  rw [mulf_apply]
  have e : (show S16x4096x3.Reduces [2] S16x4096 by decide).lift (ix2 b n) d = ix3 b n d :=
    funext fun a => Fin.ext (by match a with | ⟨0, _⟩ => rfl | ⟨1, _⟩ => rfl | ⟨2, _⟩ => rfl)
  rw [e]
  rfl

/-- The contents of the first augmented array after the host operations before the region, as one term of the
    first coordinate array. -/
theorem v10_after (W : Valuation τ sig (Elt Ideal)) :
    (StableHlo.after (hostOps0 (F := Ideal)) W (Proc.devRef .tc main_v10) : S16x4096x5.Idx → EReal)
      = concatenate S16x4096x5 2
          [⟨S16x4096x3, mulf (F := Ideal) (φ := .f32)
              (broadcastInDim S16x4096x3 ![] bcast_S_S16x4096x3 (constant (F := Ideal) S_ .f32 0xC0000000#32))
              (W (Proc.devRef .tc main_arg0))⟩,
           ⟨S16x4096x1, broadcastInDim S16x4096x1 ![0, 1] bcast_S16x4096_S16x4096x1_0_1
              (Host.reduceAdd (F := Ideal)
                (mulf (F := Ideal) (φ := .f32) (W (Proc.devRef .tc main_arg0)) (W (Proc.devRef .tc main_arg0)))
                (constant (F := Ideal) S_ .f32 0x00000000#32) reducesTo_S16x4096x3_S16x4096_d2 h_S_)⟩,
           ⟨S16x4096x1, broadcastInDim S16x4096x1 ![0, 1] bcast_S16x4096_S16x4096x1_0_1
              (broadcastInDim S16x4096 ![] bcast_S_S16x4096 (constant (F := Ideal) S_ .f32 0x3F800000#32))⟩]
          concatenates_S16x4096x3_S16x4096x1_S16x4096x1_S16x4096x5_d2 := by
  simp (disch := decide) only [after_cons, after_nil, nullary_result', unary_result', binary_result', nary3_result',
    nullary_result_ne', unary_result_ne', binary_result_ne', nary_result_ne']
  rfl

/-- The contents of the second augmented array, transposed, after the host operations before the region, as one
    term of the second coordinate array. -/
theorem v14_after (W : Valuation τ sig (Elt Ideal)) :
    (StableHlo.after (hostOps0 (F := Ideal)) W (Proc.devRef .tc main_v14) : S16x5x4096.Idx → EReal)
      = transpose S16x5x4096 [0, 2, 1]
          (concatenate S16x4096x5 2
            [⟨S16x4096x3, (W (Proc.devRef .tc main_arg1) : S16x4096x3.Idx → EReal)⟩,
             ⟨S16x4096x1, broadcastInDim S16x4096x1 ![0, 1] bcast_S16x4096_S16x4096x1_0_1
                (broadcastInDim S16x4096 ![] bcast_S_S16x4096 (constant (F := Ideal) S_ .f32 0x3F800000#32))⟩,
             ⟨S16x4096x1, broadcastInDim S16x4096x1 ![0, 1] bcast_S16x4096_S16x4096x1_0_1
                (Host.reduceAdd (F := Ideal)
                  (mulf (F := Ideal) (φ := .f32) (W (Proc.devRef .tc main_arg1)) (W (Proc.devRef .tc main_arg1)))
                  (constant (F := Ideal) S_ .f32 0x00000000#32) reducesTo_S16x4096x3_S16x4096_d2 h_S_)⟩]
            concatenates_S16x4096x3_S16x4096x1_S16x4096x1_S16x4096x5_d2)
          transposes_S16x4096x5_S16x5x4096_0_2_1 := by
  simp (disch := decide) only [after_cons, after_nil, nullary_result', unary_result', binary_result', nary3_result',
    nullary_result_ne', unary_result_ne', binary_result_ne', nary_result_ne']
  rfl

/-- The host operations before the region do not write the two coordinate arrays. -/
theorem arg0_after (W : Valuation τ sig (Elt Ideal)) :
    StableHlo.after (hostOps0 (F := Ideal)) W (Proc.devRef .tc main_arg0) = W (Proc.devRef .tc main_arg0) := by
  after_results_simp

theorem arg1_after (W : Valuation τ sig (Elt Ideal)) :
    StableHlo.after (hostOps0 (F := Ideal)) W (Proc.devRef .tc main_arg1) = W (Proc.devRef .tc main_arg1) := by
  after_results_simp

/-- After the host operations before the region the first augmented array holds, at (b, n, k), the first cloud's
    augmented coordinate k of point n of cloud b. -/
theorem V10_apply (W : Valuation τ sig (Elt Ideal)) (b : Fin 16) (n : Fin 4096) (k : Fin 5) :
    (StableHlo.after (hostOps0 (F := Ideal)) W (Proc.devRef .tc main_v10) : S16x4096x5.Idx → EReal) (ix3 b n k)
      = Chamfer.Laug (W (Proc.devRef .tc main_arg0)) b n k := by
  refine (congrFun (v10_after W) _).trans ?_
  rw [concat3_apply]
  unfold Chamfer.Laug
  by_cases h3 : k.val < 3
  · rw [dif_pos h3, dif_pos h3, mulf_apply, broadcastInDim_scalar_apply, constant_apply, ofBits_neg_two_f32]
  · rw [dif_neg h3, dif_neg h3]
    by_cases h4 : k.val = 3
    · rw [if_pos h4, if_pos h4, bcast_sq_apply]
    · rw [if_neg h4, if_neg h4, bcast_const_apply, Ideal.ofBits_one_f32]

/-- After the host operations before the region the second augmented array holds, at (b, k, q), the second cloud's
    augmented coordinate k of point q of cloud b. -/
theorem V14_apply (W : Valuation τ sig (Elt Ideal)) (b : Fin 16) (k : Fin 5) (q : Fin 4096) :
    (StableHlo.after (hostOps0 (F := Ideal)) W (Proc.devRef .tc main_v14) : S16x5x4096.Idx → EReal) (ix3 b k q)
      = Chamfer.Raug (W (Proc.devRef .tc main_arg1)) b k q := by
  refine (congrFun (v14_after W) _).trans ?_
  rw [transpose_ix3_021_apply, concat3_apply]
  unfold Chamfer.Raug
  by_cases h3 : k.val < 3
  · rw [dif_pos h3, dif_pos h3]
  · rw [dif_neg h3, dif_neg h3]
    by_cases h4 : k.val = 3
    · rw [if_pos h4, if_pos h4, bcast_const_apply, Ideal.ofBits_one_f32]
    · rw [if_neg h4, if_neg h4, bcast_sq_apply]

end Cert.ChamferHost

end
-- ==== Proof.KI.Final.lean ====
/-
  The value of the kernel's program on the extended reals.  Each grid point's product of its two blocks is the
  augmented squared distance between a row of the cloud's tile and a point of the second cloud; so after the last
  tile of a cloud the two accumulators hold the sum over the cloud's rows of the least distance, and for each point of
  the second cloud the least distance to a row; these are written back, one block per cloud, and the host operations
  after the grid add them over the clouds: the chamfer value of the augmented distances.
-/
import proofs.«166173_j25563645346662_2_alg».proof.Proof.KI.Blocks
import proofs.«166173_j25563645346662_2_alg».proof.Proof.KI.Acc
import proofs.«166173_j25563645346662_2_alg».proof.Proof.KI.Result
import proofs.«166173_j25563645346662_2_alg».proof.Proof.HostPre
import proofs.«166173_j25563645346662_2_alg».proof.Proof.PayValueA
import proofs.«166173_j25563645346662_2_alg».proof.Proof.PayValueB
import proofs.«166173_j25563645346662_2_alg».proof.Proof.PayValueD
import proofs.«166173_j25563645346662_2_alg».proof.Proof.TileChain
import proofs.«166173_j25563645346662_2_alg».proof.Proof.ChamferSpec
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx
open Chamfer Cert.ChamferPay Cert.ChamferHost Cert.ChamferChain Cert.ChamferTile

variable (mI : (ℓ : Loc nD τ sig) → Buf (Elt Ideal) ℓ)

/-- The two coordinate arrays as launched. -/
abbrev argX (c : Dev nD) : FVec Ideal S16x4096x3 .f32 := mI ((c.tc : Thread nD τ).loc main_arg0)
abbrev argY (c : Dev nD) : FVec Ideal S16x4096x3 .f32 := mI ((c.tc : Thread nD τ).loc main_arg1)

/-- The grid finds the first augmented array at (−2a, |a|², 1) -/
theorem V10_at (c : Dev nD) (b : Fin 16) (n : Fin 4096) (k : Fin 5) :
    (V mI c main_v10 : S16x4096x5.Idx → EReal) (ix3 b n k) = Laug (argX mI c) b n k := by
  show (StableHlo.after (hostOps0 (F := Ideal)) (fun b => mI (c, b)) (Proc.devRef .tc main_v10) : S16x4096x5.Idx → EReal) (ix3 b n k) = _
  exact V10_apply _ b n k
/-- and the second, transposed, at (b, 1, |b|²). -/
theorem V14_at (c : Dev nD) (b : Fin 16) (k : Fin 5) (q : Fin 4096) :
    (V mI c main_v14 : S16x5x4096.Idx → EReal) (ix3 b k q) = Raug (argY mI c) b k q := by
  show (StableHlo.after (hostOps0 (F := Ideal)) (fun b => mI (c, b)) (Proc.devRef .tc main_v14) : S16x5x4096.Idx → EReal) (ix3 b k q) = _
  exact V14_apply _ b k q

/-- The product of a grid point's two blocks is the augmented squared distance. -/
theorem pay3_at (c : Dev nD) (t : Fin cfg0.N) (p : Fin 512) (q : Fin 4096) :
    k0_pay3 (iblk mI c 0 t) (iblk mI c 1 t) (ix2 p q) = Daug (argX mI c) (argY mI c) (bOf t) (nOf t p) q := by
  refine (pay3_apply (iblk mI c 0 t) (iblk mI c 1 t) p q).trans ?_
  unfold Daug
  refine Finset.sum_congr rfl fun k _ => ?_
  exact congrArg₂ (· * ·) ((iblk0_apply mI c t p k).trans (V10_at mI c _ _ k)) ((iblk1_apply mI c t k q).trans (V14_at mI c _ k q))

/-- After the last tile of a cloud: the sum of the rows' least distances, and each column's least distance. -/
theorem acc_last (c : Dev nD) (t : Fin cfg0.N) (h7 : t.val % 8 = 7) :
    (acc mI c t.val t.isLt).2 (ix2 (0 : Fin 1) (0 : Fin 1)) = ∑ n : Fin 4096, Finset.univ.inf (fun q : Fin 4096 => Daug (argX mI c) (argY mI c) (bOf t) n q)
    ∧ ∀ q : Fin 4096, (acc mI c t.val t.isLt).1 (ix2 (0 : Fin 1) q) = Finset.univ.inf (fun n : Fin 4096 => Daug (argX mI c) (argY mI c) (bOf t) n q) := by
  obtain ⟨h1, h2⟩ := acc_inv mI c (Daug (argX mI c) (argY mI c)) (pay3_at mI c) t.val t.isLt
  rw [h7] at h1 h2
  exact ⟨h1.trans (rows_total _), fun q => (h2 q).trans (cols_total _ q)⟩

/-- What the two result arrays end holding: for cloud b, in every lane, the two sums. -/
def G2 (c : Dev nD) : S16x1x128.Idx → EReal := fun i =>
  ∑ n : Fin 4096, Finset.univ.inf (fun q : Fin 4096 => Daug (argX mI c) (argY mI c) (i 0) n q)
def G3 (c : Dev nD) : S16x1x128.Idx → EReal := fun i =>
  ∑ q : Fin 4096, Finset.univ.inf (fun n : Fin 4096 => Daug (argX mI c) (argY mI c) (i 0) n q)

theorem blockIdx (y : S1x1x128.Idx) : ∃ l : Fin 128, y = ix3 (0 : Fin 1) (0 : Fin 1) l :=
  ⟨y 2, by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl⟩

/-- The block written back at a cloud's last tile is that cloud's block of the first result. -/
theorem flushed2_eq (c : Dev nD) (t : Fin cfg0.N) (hf : (cfg0.win 2).flush t = true) :
    (dats mI 0 c).flushed 2 t = ((cfg0.win 2).blk t).view.read (Elt Ideal) (G2 mI c) := by
  have h7 : t.val % 8 = 7 := (flush0_2 t).mp hf
  show (cfg0.win 2).cut (grid0.coords t) ((dats mI 0 c).after 2 t) = _
  rw [after0_2]
  funext y
  obtain ⟨l, rfl⟩ := blockIdx y
  show k0_pay6 (acc mI c t.val t.isLt).2 (ix3 (0 : Fin 1) (0 : Fin 1) l) = G2 mI c (((cfg0.win 2).blk t).view.emb (ix3 (0 : Fin 1) (0 : Fin 1) l))
  rw [pay6_apply, (acc_last mI c t h7).1]
  unfold G2
  rw [emb2_zero]

theorem flushed3_eq (c : Dev nD) (t : Fin cfg0.N) (hf : (cfg0.win 3).flush t = true) :
    (dats mI 0 c).flushed 3 t = ((cfg0.win 3).blk t).view.read (Elt Ideal) (G3 mI c) := by
  have h7 : t.val % 8 = 7 := (flush0_3 t).mp hf
  show (cfg0.win 3).cut (grid0.coords t) ((dats mI 0 c).after 3 t) = _
  rw [after0_3]
  funext y
  obtain ⟨l, rfl⟩ := blockIdx y
  show k0_pay7 (acc mI c t.val t.isLt).1 (ix3 (0 : Fin 1) (0 : Fin 1) l) = G3 mI c (((cfg0.win 3).blk t).view.emb (ix3 (0 : Fin 1) (0 : Fin 1) l))
  rw [pay7_apply]
  unfold G3
  rw [emb3_zero]
  exact Finset.sum_congr rfl fun q _ => (acc_last mI c t h7).2 q

/-- The two result arrays after the grid. -/
theorem final2 (c : Dev nD) : (dats mI 0 c).arrAt 2 cfg0.N = G2 mI c :=
  (dats mI 0 c).arrAt_eq_of_cover 2 (G2 mI c) (flushed2_eq mI c) cover2
theorem final3 (c : Dev nD) : (dats mI 0 c).arrAt 3 cfg0.N = G3 mI c :=
  (dats mI 0 c).arrAt_eq_of_cover 3 (G3 mI c) (flushed3_eq mI c) cover3

/-- The whole program at the extended reals: it terminates without a fault, its result is the chamfer value of the
    augmented squared distances of the two argument arrays, and the argument arrays are unchanged. -/
theorem kernel_run (ρ : Dev nD → PrngReg) : θ_run defs (onTc (τ := τ) (main (F := Ideal))) ⟨mI, fun _ => 0, ρ⟩ (fun r => ∀ c : Dev nD,
      r.2.mem ((c.tc : Thread nD τ).loc main_v25) = Chamfer.total (Daug (argX mI c) (argY mI c))
      ∧ r.2.mem ((c.tc : Thread nD τ).loc main_arg0) = mI ((c.tc : Thread nD τ).loc main_arg0)
      ∧ r.2.mem ((c.tc : Thread nD τ).loc main_arg1) = mI ((c.tc : Thread nD τ).loc main_arg1)) :=
  (θ_run defs _ _).mono (fun r h c => ⟨(h c).1.trans (by rw [final2, final3]; rfl), (h c).2⟩) (result_run mI ρ)

end Cert.KernelIdeal.Fr

end
-- ==== Proof.RefValueA.lean ====
/-
  The reference's array of squared distances, read at one index.  At coordinates (b, n, m) the reference adds the
  squared length of point n of the first cloud (a sum of three squares from the zero word, broadcast along m) to that
  of point m of the second (broadcast along n), and subtracts the word 2.0 times the contraction of the two points
  over their three coordinates: this is the expanded squared distance |a|² + |b|² − 2 a·b of the specification.
-/
import proofs.«166173_j25563645346662_2_alg».proof.Proof.Gen.ReferenceIdeal.Read
import proofs.«166173_j25563645346662_2_alg».proof.Proof.ChamferSpec

open scoped BigOperators

noncomputable section

namespace Cert.ChamferRef

open Idealize.ShloMosaic Idealize.ShloMosaic.ValueIdx Cert.ReferenceIdeal Cert.ReferenceIdeal.Read

/-- The word 2.0 denotes the real number 2. -/
theorem ofBits_two : Ideal.ofBits .f32 0x40000000#32 = ((2 : ℝ) : EReal) := by
  simp [Ideal.ofBits, Ideal.ieee, -EReal.coe_mul]; norm_num

/-- The broadcast squared length of the first cloud's point. -/
theorem v7_at (x : FVec Ideal S16x4096x3 .f32) (b : Fin 16) (n m : Fin 4096) :
    val_main_v7 (F := Ideal) x (ix3 b n m) = Chamfer.sq x b n := by
  rw [val_main_v7_apply, val_main_v5_apply, val_main_v1_apply, val_main_cst_apply]
  show Ideal.ofBits .f32 0x00000000#32 + _ = _
  rw [Ideal.ofBits_zero_f32, zero_add]
  unfold Chamfer.sq
  refine Finset.sum_congr rfl fun k _ => ?_
  rw [val_main_v0_apply]
  have e : idx_main_v1 (idx_main_v5 (idx_main_v7 (ix3 b n m))) k = ix3 b n k :=
    funext fun a => match a with | ⟨0, _⟩ => rfl | ⟨1, _⟩ => rfl | ⟨2, _⟩ => rfl
  rw [e]; rfl

/-- The broadcast squared length of the second cloud's point. -/
theorem v8_at (y : FVec Ideal S16x4096x3 .f32) (b : Fin 16) (n m : Fin 4096) :
    val_main_v8 (F := Ideal) y (ix3 b n m) = Chamfer.sq y b m := by
  rw [val_main_v8_apply, val_main_v6_apply, val_main_v3_apply, val_main_cst_0_apply]
  show Ideal.ofBits .f32 0x00000000#32 + _ = _
  rw [Ideal.ofBits_zero_f32, zero_add]
  unfold Chamfer.sq
  refine Finset.sum_congr rfl fun k _ => ?_
  rw [val_main_v2_apply]
  have e : idx_main_v3 (idx_main_v6 (idx_main_v8 (ix3 b n m))) k = ix3 b m k :=
    funext fun a => match a with | ⟨0, _⟩ => rfl | ⟨1, _⟩ => rfl | ⟨2, _⟩ => rfl
  rw [e]; rfl

/-- The contraction of the two points. -/
theorem v4_at (x y : FVec Ideal S16x4096x3 .f32) (b : Fin 16) (n m : Fin 4096) :
    val_main_v4 (F := Ideal) x y (ix3 b n m) = Chamfer.dot x y b n m := by
  rw [val_main_v4_apply]
  unfold Chamfer.dot
  refine Finset.sum_congr rfl fun k _ => ?_
  have el : lidx_main_v4 (ix3 b n m) k = ix3 b n k :=
    funext fun a => match a with | ⟨0, _⟩ => rfl | ⟨1, _⟩ => rfl | ⟨2, _⟩ => rfl
  have er : ridx_main_v4 (ix3 b n m) k = ix3 b m k :=
    funext fun a => match a with | ⟨0, _⟩ => rfl | ⟨1, _⟩ => rfl | ⟨2, _⟩ => rfl
  rw [el, er]

/-- The reference's squared-distance array at (b, n, m) is the expanded squared distance. -/
theorem v12_at (x y : FVec Ideal S16x4096x3 .f32) (b : Fin 16) (n m : Fin 4096) :
    val_main_v12 (F := Ideal) x y (ix3 b n m) = Chamfer.Dref x y b n m := by
  rw [val_main_v12_apply, val_main_v9_apply, val_main_v11_apply, val_main_v10_apply, val_main_cst_1_apply,
    v7_at, v8_at, v4_at]
  show (Chamfer.sq x b n + Chamfer.sq y b m) - Ideal.ofBits .f32 0x40000000#32 * Chamfer.dot x y b n m = _
  rw [ofBits_two]
  rfl

end Cert.ChamferRef

end
-- ==== Proof.RefValueB.lean ====
/-
  The reference's two minimum reductions, read at an index.  A reduction by minimum from the word of +∞ over one axis
  is, at each remaining index, the fold of min from +∞ over that axis's coordinates, which is the infimum over the
  coordinates: over the last axis it gives, for point n of the first cloud, the least squared distance to a point of
  the second; over the middle axis, for point m of the second cloud, the least squared distance to a point of the first.
-/
import proofs.«166173_j25563645346662_2_alg».proof.Proof.RefValueA
import Idealize.ShloMosaic.PureOps.Reduce

open scoped BigOperators

noncomputable section

namespace Cert.ChamferRef

open Idealize.ShloMosaic Idealize.ShloMosaic.ValueIdx Cert.ReferenceIdeal Cert.ReferenceIdeal.Gen Cert.ReferenceIdeal.Read

/-- The word of +∞ denotes the top extended real. -/
theorem ofBits_top : Ideal.ofBits .f32 0x7F800000#32 = (⊤ : EReal) := by
  simp [Ideal.ofBits, Ideal.ieee]

/-- The fold of min from +∞ over all of a finite type is the infimum. -/
theorem fold_min_top {ι : Type} [Fintype ι] (f : ι → EReal) :
    (Finset.univ : Finset ι).fold (FloatOps.minimumf (F := Ideal) (φ := .f32)) (⊤ : EReal) f = Finset.univ.inf f := rfl

/-- The same from the word of +∞, for a family known entry by entry. -/
theorem fold_min_top_eq {ι : Type} [Fintype ι] (f g : ι → EReal) (h : ∀ k, f k = g k) :
    (Finset.univ : Finset ι).fold (FloatOps.minimumf (F := Ideal) (φ := .f32))
      (FloatOps.ofBits (F := Ideal) .f32 0x7F800000#32) f = Finset.univ.inf g := by
  have e : (FloatOps.ofBits (F := Ideal) .f32 0x7F800000#32 : EReal) = ⊤ := ofBits_top
  rw [e, show f = g from funext h]
  rfl

theorem reduces_d2 : S16x4096x4096.Reduces [2] S16x4096 := by decide
theorem reduces_d1 : S16x4096x4096.Reduces [1] S16x4096 := by decide

/-- The index over (b, n) with coordinate m inserted on the last axis. -/
theorem lift_d2 (b : Fin 16) (n m : Fin 4096) : reduces_d2.lift (ix2 b n) m = ix3 b n m :=
  funext fun c => Fin.ext (match c with | ⟨0, _⟩ => rfl | ⟨1, _⟩ => rfl | ⟨2, _⟩ => rfl)

/-- The index over (b, m) with coordinate n inserted on the middle axis. -/
theorem lift_d1 (b : Fin 16) (m n : Fin 4096) : reduces_d1.lift (ix2 b m) n = ix3 b n m :=
  funext fun c => Fin.ext (match c with | ⟨0, _⟩ => rfl | ⟨1, _⟩ => rfl | ⟨2, _⟩ => rfl)

/-- The minimum over the second cloud's points. -/
theorem v13_at (x y : FVec Ideal S16x4096x3 .f32) (b : Fin 16) (n : Fin 4096) :
    val_main_v13 (F := Ideal) x y (ix2 b n) = Finset.univ.inf (fun m : Fin 4096 => Chamfer.Dref x y b n m) := by
  unfold val_main_v13
  rw [Host.reduce_eq_fold_single (FloatOps.minimumf (F := Ideal) (φ := .f32)) _ _ reducesTo_S16x4096x4096_S16x4096_d2
    reduces_d2 h_S_ (ix2 b n), val_main_cst_2_apply]
  exact fold_min_top_eq _ _ fun m =>
    (congrArg (val_main_v12 (F := Ideal) x y) (lift_d2 b n m)).trans (v12_at x y b n m)

/-- The minimum over the first cloud's points. -/
theorem v14_at (x y : FVec Ideal S16x4096x3 .f32) (b : Fin 16) (m : Fin 4096) :
    val_main_v14 (F := Ideal) x y (ix2 b m) = Finset.univ.inf (fun n : Fin 4096 => Chamfer.Dref x y b n m) := by
  unfold val_main_v14
  rw [Host.reduce_eq_fold_single (FloatOps.minimumf (F := Ideal) (φ := .f32)) _ _ reducesTo_S16x4096x4096_S16x4096_d1
    reduces_d1 h_S_ (ix2 b m), val_main_cst_3_apply]
  exact fold_min_top_eq _ _ fun n =>
    (congrArg (val_main_v12 (F := Ideal) x y) (lift_d1 b m n)).trans (v12_at x y b n m)

end Cert.ChamferRef

end
-- ==== Proof.RefValue.lean ====
/-
  The reference's result is the chamfer value of the expanded squared distances.  Its two total sums start from the
  zero word and run over every index (b, n) of the two arrays of minima, so they are the specification's double sums
  of infima; the last operations (each sum scaled by the word one, added, divided by the word sixteen) are the
  specification's closing term, operation by operation.
-/
import proofs.«166173_j25563645346662_2_alg».proof.Proof.RefValueB

open scoped BigOperators

noncomputable section

namespace Cert.ChamferRef

open Idealize.ShloMosaic Idealize.ShloMosaic.ValueIdx Cert.ReferenceIdeal Cert.ReferenceIdeal.Gen Cert.ReferenceIdeal.Read

/-- The first total: over every point of the first clouds, the least distance to the second. -/
theorem v15_eq (x y : FVec Ideal S16x4096x3 .f32) :
    val_main_v15 (F := Ideal) x y = fun _ => Chamfer.S1 (Chamfer.Dref x y) := by
  funext i
  rw [val_main_v15_apply, val_main_cst_4_apply]
  show Ideal.ofBits .f32 0x00000000#32 + _ = _
  rw [Ideal.ofBits_zero_f32, zero_add, sum_idx2]
  unfold Chamfer.S1
  exact Finset.sum_congr rfl fun b _ => Finset.sum_congr rfl fun n _ => v13_at x y b n

/-- The second total: over every point of the second clouds, the least distance to the first. -/
theorem v17_eq (x y : FVec Ideal S16x4096x3 .f32) :
    val_main_v17 (F := Ideal) x y = fun _ => Chamfer.S2 (Chamfer.Dref x y) := by
  funext i
  rw [val_main_v17_apply, val_main_cst_6_apply]
  show Ideal.ofBits .f32 0x00000000#32 + _ = _
  rw [Ideal.ofBits_zero_f32, zero_add, sum_idx2]
  unfold Chamfer.S2
  exact Finset.sum_congr rfl fun b _ => Finset.sum_congr rfl fun m _ => v14_at x y b m

/-- The reference's result array is the chamfer value of the expanded squared distances. -/
theorem ref_eq (x y : FVec Ideal S16x4096x3 .f32) :
    val_main_v20 (F := Ideal) x y = Chamfer.total (Chamfer.Dref x y) := by
  unfold val_main_v20 val_main_v19 val_main_v16 val_main_v18 val_main_cst_5 val_main_cst_7 val_main_cst_8
  rw [v15_eq, v17_eq]
  rfl

end Cert.ChamferRef

end
-- ==== Proof.Bridge.lean ====
/-
  The squared distance between two points of 3-space written as one contraction over five augmented coordinates,
  (−2a, |a|², 1) against (b, 1, |b|²), equals the expanded form |a|² + |b|² − 2 a·b when all six coordinates are
  real numbers: both sides are then coercions of real expressions, equal by distributivity.
-/
import proofs.«166173_j25563645346662_2_alg».proof.Proof.ChamferSpec

open scoped BigOperators

namespace Cert.ChamferBridge

open Idealize.ShloMosaic Idealize.ShloMosaic.ValueIdx Chamfer

theorem Laug_0 (x : FVec Ideal SPts .f32) (b : Fin 16) (n : Fin 4096) :
    Laug x b n 0 = ((-2 : ℝ) : EReal) * x (ix3 b n 0) := rfl
theorem Laug_1 (x : FVec Ideal SPts .f32) (b : Fin 16) (n : Fin 4096) :
    Laug x b n 1 = ((-2 : ℝ) : EReal) * x (ix3 b n 1) := rfl
theorem Laug_2 (x : FVec Ideal SPts .f32) (b : Fin 16) (n : Fin 4096) :
    Laug x b n 2 = ((-2 : ℝ) : EReal) * x (ix3 b n 2) := rfl
theorem Laug_3 (x : FVec Ideal SPts .f32) (b : Fin 16) (n : Fin 4096) :
    Laug x b n 3 = sq x b n := rfl
theorem Laug_4 (x : FVec Ideal SPts .f32) (b : Fin 16) (n : Fin 4096) :
    Laug x b n 4 = 1 := rfl

theorem Raug_0 (y : FVec Ideal SPts .f32) (b : Fin 16) (m : Fin 4096) :
    Raug y b 0 m = y (ix3 b m 0) := rfl
theorem Raug_1 (y : FVec Ideal SPts .f32) (b : Fin 16) (m : Fin 4096) :
    Raug y b 1 m = y (ix3 b m 1) := rfl
theorem Raug_2 (y : FVec Ideal SPts .f32) (b : Fin 16) (m : Fin 4096) :
    Raug y b 2 m = y (ix3 b m 2) := rfl
theorem Raug_3 (y : FVec Ideal SPts .f32) (b : Fin 16) (m : Fin 4096) :
    Raug y b 3 m = 1 := rfl
theorem Raug_4 (y : FVec Ideal SPts .f32) (b : Fin 16) (m : Fin 4096) :
    Raug y b 4 m = sq y b m := rfl

/-- For real coordinates the augmented contraction is the expanded squared distance. -/
theorem Daug_eq_Dref (x y : FVec Ideal SPts .f32)
    (hx : ∀ i, ∃ r : ℝ, x i = (r : EReal)) (hy : ∀ i, ∃ r : ℝ, y i = (r : EReal))
    (b : Fin 16) (n m : Fin 4096) : Daug x y b n m = Dref x y b n m := by
  obtain ⟨a0, ha0⟩ := hx (ix3 b n 0)
  obtain ⟨a1, ha1⟩ := hx (ix3 b n 1)
  obtain ⟨a2, ha2⟩ := hx (ix3 b n 2)
  obtain ⟨c0, hc0⟩ := hy (ix3 b m 0)
  obtain ⟨c1, hc1⟩ := hy (ix3 b m 1)
  obtain ⟨c2, hc2⟩ := hy (ix3 b m 2)
  have hsx : sq x b n = ((a0 * a0 + a1 * a1 + a2 * a2 : ℝ) : EReal) := by
    simp only [Chamfer.sq, Fin.sum_univ_three, ha0, ha1, ha2, EReal.coe_mul, EReal.coe_add]
  have hsy : sq y b m = ((c0 * c0 + c1 * c1 + c2 * c2 : ℝ) : EReal) := by
    simp only [Chamfer.sq, Fin.sum_univ_three, hc0, hc1, hc2, EReal.coe_mul, EReal.coe_add]
  have hd : dot x y b n m = ((a0 * c0 + a1 * c1 + a2 * c2 : ℝ) : EReal) := by
    simp only [Chamfer.dot, Fin.sum_univ_three, ha0, ha1, ha2, hc0, hc1, hc2, EReal.coe_mul, EReal.coe_add]
  have hL : Daug x y b n m =
      (((-2) * a0 * c0 + (-2) * a1 * c1 + (-2) * a2 * c2 + (a0 * a0 + a1 * a1 + a2 * a2) * 1
        + 1 * (c0 * c0 + c1 * c1 + c2 * c2) : ℝ) : EReal) := by
    simp only [Chamfer.Daug, Fin.sum_univ_five, Laug_0, Laug_1, Laug_2, Laug_3, Laug_4, Raug_0, Raug_1, Raug_2, Raug_3,
      Raug_4, hsx, hsy, ha0, ha1, ha2, hc0, hc1, hc2, EReal.coe_mul, EReal.coe_add, EReal.coe_one]
  have hR : Dref x y b n m =
      (((a0 * a0 + a1 * a1 + a2 * a2) + (c0 * c0 + c1 * c1 + c2 * c2)
        - 2 * (a0 * c0 + a1 * c1 + a2 * c2) : ℝ) : EReal) := by
    simp only [Chamfer.Dref, hsx, hsy, hd, EReal.coe_mul, EReal.coe_add, EReal.coe_sub]
  rw [hL, hR]
  congr 1
  ring

/-- For real coordinates the two families of squared distances are the same function. -/
theorem Daug_eq_Dref_fun (x y : FVec Ideal SPts .f32)
    (hx : ∀ i, ∃ r : ℝ, x i = (r : EReal)) (hy : ∀ i, ∃ r : ℝ, y i = (r : EReal)) :
    Daug x y = Dref x y :=
  funext fun b => funext fun n => funext fun m => Daug_eq_Dref x y hx hy b n m

/-- Hence the two chamfer values agree. -/
theorem total_Daug_eq (x y : FVec Ideal SPts .f32)
    (hx : ∀ i, ∃ r : ℝ, x i = (r : EReal)) (hy : ∀ i, ∃ r : ℝ, y i = (r : EReal)) :
    total (Daug x y) = total (Dref x y) := by
  rw [Daug_eq_Dref_fun x y hx hy]

end Cert.ChamferBridge
-- ==== Proof.LibRealArith.lean ====
/-
  Real-number arithmetic inside the extended reals: the entries that are real numbers, the operations that keep
  them so, and the two identities of batch normalisation that hold once every entry is real.

  An extended real is a real number, +∞ or −∞. Sums, differences, products and maxima of reals are real; so is an
  exact sum of finitely many reals, hence a contraction (a matrix product, with or without an accumulator), a sum
  along axes, and a scatter-addition — each entry of the result is an entry of the operand plus the sum of the
  updates that land on it. A gather only re-reads entries of its operand. A quotient by a real that is not zero is
  real, and division by a nonzero real is the product with its reciprocal on every extended real, so a product
  with `1 / c` is the quotient by `c`.

  Batch normalisation: a column h_1 … h_N (N > 0) has mean μ = (Σ h_i) / N. Its centred variance
  (Σ (h_i − μ)·(h_i − μ)) / N is its moment variance (Σ h_i·h_i) / N − μ·μ, because
  Σ (h_i − μ)² = Σ h_i² − 2 μ Σ h_i + N μ² and Σ h_i = N μ; and (x − μ)·r·γ + β = x·(γ·r) + (β − μ·(γ·r)).
  Both are identities of real numbers; subtraction and distributivity fail at the infinities, so on the extended
  reals they are stated for real entries.
-/
import Mathlib
import Idealize.ShloMosaic.PureOps.Ideal
import Idealize.ShloMosaic.PureOps.Ideal.Laws

noncomputable section

namespace Cert.LibRealArith

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of reals is real, and is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real by a nonzero real is the real quotient. -/
theorem div_coe_coe (a : ℝ) {c : ℝ} (hc : c ≠ 0) : Ideal.div (a : EReal) (c : EReal) = ((a / c : ℝ) : EReal) := by
  rw [Ideal.div_coe hc, ← EReal.coe_mul]; congr 1; field_simp

theorem IsReal.div_coe {x : EReal} (hx : IsReal x) {c : ℝ} (hc : c ≠ 0) : IsReal (Ideal.div x (c : EReal)) := by
  obtain ⟨a, rfl⟩ := hx; exact ⟨a / c, div_coe_coe a hc⟩

/-- The product with the reciprocal of a nonzero real is the quotient by it, on every extended real. -/
theorem mul_one_div (x : EReal) {c : ℝ} (hc : c ≠ 0) :
    x * Ideal.div 1 (c : EReal) = Ideal.div x (c : EReal) := by
  rw [Ideal.div_coe hc x, Ideal.div_coe hc 1, one_mul]

/-- The reciprocal square root of a positive real is a positive real. -/
theorem rsqrt_coe_pos {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

/-! ## The two variances -/

/-- Over the reals: the centred second moment is the second moment minus the squared mean. -/
theorem real_var_eq {ι : Type*} [Fintype ι] (f : ι → ℝ) {n : ℝ} (hn : n ≠ 0) (hcard : (Fintype.card ι : ℝ) = n) :
    (∑ i, (f i - (∑ j, f j) / n) * (f i - (∑ j, f j) / n)) / n
      = (∑ i, f i * f i) / n - (∑ j, f j) / n * ((∑ j, f j) / n) := by
  have h1 : ∀ i, (f i - (∑ j, f j) / n) * (f i - (∑ j, f j) / n)
      = f i * f i - 2 * ((∑ j, f j) / n) * f i + ((∑ j, f j) / n) * ((∑ j, f j) / n) := fun i => by ring
  simp only [h1, Finset.sum_add_distrib, Finset.sum_sub_distrib, ← Finset.mul_sum, Finset.sum_const,
    Finset.card_univ, nsmul_eq_mul, hcard]
  field_simp
  ring

/-- On the extended reals, for a column of real entries and a real count `n ≠ 0` equal to the number of rows: the
    centred variance (mean subtracted, squared, summed, divided) is the moment variance (mean of squares minus the
    squared mean). -/
theorem var_eq {ι : Type*} [Fintype ι] (h : ι → EReal) (hh : ∀ i, IsReal (h i)) {n : ℝ} (hn : n ≠ 0)
    (hcard : (Fintype.card ι : ℝ) = n) :
    Ideal.div (∑ i, (h i - Ideal.div (∑ j, h j) (n : EReal)) * (h i - Ideal.div (∑ j, h j) (n : EReal))) (n : EReal)
      = Ideal.div (∑ i, h i * h i) (n : EReal)
          - Ideal.div (∑ j, h j) (n : EReal) * Ideal.div (∑ j, h j) (n : EReal) := by
  choose f hf using hh
  have hfun : h = fun i => ((f i : ℝ) : EReal) := funext hf
  subst hfun
  simp only [sum_coe, div_coe_coe _ hn, ← EReal.coe_sub, ← EReal.coe_mul]
  exact congrArg _ (real_var_eq f hn hcard)

/-! ## The two normalisations -/

/-- Over real entries: centre, scale by `r`, by `γ`, shift by `β` — or scale by `γ·r` and shift by `β − μ·(γ·r)`. -/
theorem affine_eq {x μ r γ β : EReal} (hx : IsReal x) (hμ : IsReal μ) (hr : IsReal r) (hγ : IsReal γ) (hβ : IsReal β) :
    (x - μ) * r * γ + β = x * (γ * r) + (β - μ * (γ * r)) := by
  obtain ⟨a, rfl⟩ := hx; obtain ⟨m, rfl⟩ := hμ; obtain ⟨s, rfl⟩ := hr; obtain ⟨g, rfl⟩ := hγ; obtain ⟨b, rfl⟩ := hβ
  simp only [← EReal.coe_sub, ← EReal.coe_mul, ← EReal.coe_add]
  congr 1; ring

/-! ## Arrays of real entries -/

/-- Every entry of the array is a real number. -/
def AllReal {ι : Type*} (x : ι → EReal) : Prop := ∀ i, IsReal (x i)

theorem AllReal.add {ι : Type*} {x y : ι → EReal} (hx : AllReal x) (hy : AllReal y) : AllReal fun i => x i + y i :=
  fun i => (hx i).add (hy i)
theorem AllReal.sub {ι : Type*} {x y : ι → EReal} (hx : AllReal x) (hy : AllReal y) : AllReal fun i => x i - y i :=
  fun i => (hx i).sub (hy i)
theorem AllReal.mul {ι : Type*} {x y : ι → EReal} (hx : AllReal x) (hy : AllReal y) : AllReal fun i => x i * y i :=
  fun i => (hx i).mul (hy i)
theorem AllReal.max {ι : Type*} {x y : ι → EReal} (hx : AllReal x) (hy : AllReal y) : AllReal fun i => max (x i) (y i) :=
  fun i => (hx i).max (hy i)
/-- Re-reading entries (a gather, a transpose, a slice, a broadcast) keeps them real. -/
theorem AllReal.comp {ι κ : Type*} {x : ι → EReal} (hx : AllReal x) (f : κ → ι) : AllReal fun k => x (f k) :=
  fun k => hx (f k)

/-- A gather's entries are entries of its operand. -/
theorem gather {s si t : Shape} {w : Nat} (d : GatherDims s si t) {x : s.Idx → EReal} (hx : AllReal x) (idx : IVec si w) :
    AllReal (Host.gather d x idx) := fun j => hx _

/-- A scatter-addition of real updates onto a real operand is real: an entry is the operand's plus a finite sum of updates. -/
theorem hostScatterAdd {s si su : Shape} (d : ScatterDims s si su) {w : Nat} {x : s.Idx → EReal} (hx : AllReal x)
    (idx : IVec si w) {upd : su.Idx → EReal} (hu : AllReal upd) : AllReal (Ideal.hostScatterAdd d x idx upd) :=
  fun i => (hx i).add (IsReal.sum _ fun j _ => hu j)

/-- A host sum along axes of a real array from a real initial value is real. -/
theorem hostReduceAdd {s : Shape} {axes : List (Fin s.rank)} {t : Shape} (h : s.ReducesTo axes t) {x : s.Idx → EReal}
    (hx : AllReal x) {init : EReal} (hi : IsReal init) : AllReal (Ideal.hostReduceAdd h x init) :=
  fun j => hi.add (IsReal.sum _ fun i _ => hx i)

/-- A vector sum along axes of a real array is real. -/
theorem reduceAdd {s : Shape} {axes : List (Fin s.rank)} {t : Shape} (h : s.Reduces axes t) {x : s.Idx → EReal}
    (hx : AllReal x) : AllReal (Ideal.reduceAdd h x) :=
  fun j => IsReal.sum _ fun i _ => hx i

/-- A contraction of real operands into a real accumulator is real. -/
theorem matmul {sl sr so : Shape} (d : DotDims sl sr so) {lhs : sl.Idx → EReal} {rhs : sr.Idx → EReal} {acc : so.Idx → EReal}
    (hl : AllReal lhs) (hr : AllReal rhs) (ha : AllReal acc) : AllReal (Ideal.matmul d lhs rhs acc) :=
  fun j => (ha j).add (IsReal.sum _ fun k _ => (hl _).mul (hr _))

/-- A sum of products of real factors is real (a contraction with no accumulator, read at an entry). -/
theorem sum_mul {κ : Type*} [Fintype κ] {L R : κ → EReal} (hL : AllReal L) (hR : AllReal R) : IsReal (∑ k, L k * R k) :=
  IsReal.sum _ fun k _ => (hL k).mul (hR k)

/-- A quotient of a real array by an array of nonzero reals is real. -/
theorem div {ι : Type*} {x y : ι → EReal} (hx : AllReal x) (hy : ∀ i, ∃ r : ℝ, r ≠ 0 ∧ y i = (r : EReal)) :
    AllReal fun i => Ideal.div (x i) (y i) := fun i => by
  obtain ⟨r, hr, e⟩ := hy i
  show IsReal (Ideal.div (x i) (y i))
  rw [e]; exact (hx i).div_coe hr

/-- The larger of a real and one is a real that is at least one, so nonzero: the divisor of a mean over a count that
    may be zero. -/
theorem max_one_ne_zero {x : EReal} (hx : IsReal x) : ∃ r : ℝ, r ≠ 0 ∧ max x 1 = (r : EReal) := by
  obtain ⟨a, rfl⟩ := hx
  refine ⟨Max.max a 1, ?_, ?_⟩
  · have : (1 : ℝ) ≤ Max.max a 1 := le_max_right a 1
    intro h; rw [h] at this; norm_num at this
  · rw [show (1 : EReal) = ((1 : ℝ) : EReal) from rfl]
    exact (EReal.coe_strictMono.monotone.map_max).symm

end Cert.LibRealArith

end
-- ==== Proof.LibFiniteEntry.lean ====
/-
  An entry that passes the finiteness test is a real number.

  An extended real is a real number, +∞ or −∞; its absolute value is the larger of it and its negative, which for +∞
  and for −∞ is +∞. So an extended real whose absolute value is strictly below +∞ is a real number
  (`isReal_of_abs_lt_top`), and so is one for which the comparison "absolute value < the binary32 pattern of +∞"
  answers the bit 1 (`isReal_of_cmp`): the form in which a "every input is finite" precondition tests each entry.
-/
import Mathlib
import Idealize.ShloMosaic.PureOps.Ideal
import proofs.«166173_j25563645346662_2_alg».proof.Proof.LibRealArith

noncomputable section

namespace Cert.LibFiniteEntry

open Idealize.ShloMosaic Cert.LibRealArith

/-- The binary32 pattern of +∞. -/
theorem ofBits_inf : Ideal.ofBits .f32 0x7F800000#32 = ⊤ := by
  simp [Ideal.ofBits, Ideal.ieee]

/-- An extended real whose absolute value is below +∞ is a real number. -/
theorem isReal_of_abs_lt_top (x : EReal) (h : max x (-x) < ⊤) : IsReal x := by
  induction x using EReal.rec with
  | bot => exact absurd h (by simp)
  | top => exact absurd h (by simp)
  | coe r => exact ⟨r, rfl⟩

/-- The same, from the comparison's one-bit answer against the pattern of +∞. -/
theorem isReal_of_cmp (x : EReal)
    (h : Ideal.cmp .olt (max x (-x)) (Ideal.ofBits .f32 0x7F800000#32) = 1#1) : IsReal x := by
  rw [ofBits_inf] at h
  refine isReal_of_abs_lt_top x ?_
  by_contra hn
  unfold Ideal.cmp at h
  simp [hn] at h

end Cert.LibFiniteEntry

end
-- ==== Proof.Finite.lean ====
/-
  From the printed finiteness test to "every entry of both coordinate arrays is a real number".  The test computes,
  for each array, the conjunction over all entries of the comparison |entry| < +∞, and the conjunction of the two
  answers; if the answer is the bit 1 then each comparison answered 1, and an extended real whose absolute value is
  strictly below +∞ is a real number.
-/
import Idealize.ShloMosaic.Lib.ReduceAll
import Idealize.ShloMosaic.Lib.ValueIdx
import proofs.«166173_j25563645346662_2_alg».proof.Pre_finite_inputs
import proofs.«166173_j25563645346662_2_alg».proof.Proof.Gen.Pre_finite_inputs
import proofs.«166173_j25563645346662_2_alg».proof.Proof.LibFiniteEntry

namespace Cert.ChamferFinite

open Idealize.ShloMosaic Cert.Pre_finite_inputs

instance : Subsingleton S_.Idx := ⟨fun a b => funext fun d => d.elim0⟩

/-- If the finiteness test answers 1, every entry of both arrays is a real number. -/
theorem entries_real (x y : FVec Ideal S16x4096x3 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  refine ⟨fun i => ?_, fun i => ?_⟩
  · have e := Host.reduce_andi_all _ _ _ _ _ hx i
    exact Cert.LibFiniteEntry.isReal_of_cmp (x i) e
  · have e := Host.reduce_andi_all _ _ _ _ _ hy i
    exact Cert.LibFiniteEntry.isReal_of_cmp (y i) e

end Cert.ChamferFinite
-- ==== Proof.TotalBridge.lean ====
/-
  Under the printed finiteness test the chamfer value of the augmented contractions equals that of the expanded
  squared distances: the test makes every coordinate a real number, and for real coordinates the two squared-distance
  families coincide entry by entry.
-/
import proofs.«166173_j25563645346662_2_alg».proof.Proof.Bridge
import proofs.«166173_j25563645346662_2_alg».proof.Proof.Finite

namespace Cert.ChamferBridge

open Idealize.ShloMosaic

/-- If the finiteness test answers 1, the two chamfer values agree. -/
theorem total_aug_eq_ref (x y : FVec Ideal Cert.Pre_finite_inputs.S16x4096x3 .f32)
    (h : Cert.Pre_finite_inputs.fn (F := Ideal) x y = fun _ => 1#1) :
    Chamfer.total (Chamfer.Daug x y) = Chamfer.total (Chamfer.Dref x y) :=
  total_Daug_eq x y (Cert.ChamferFinite.entries_real x y h).1 (Cert.ChamferFinite.entries_real x y h).2

end Cert.ChamferBridge
-- ==== Proof.lean ====
/-
  The certificate of a chamfer-distance kernel against its reference, over 16 pairs of clouds of 4096 points in 3-space.

  The kernel builds, on the host, two augmented arrays — (−2a, |a|², 1) for the first clouds and (b, 1, |b|²),
  transposed, for the second — so that ONE matrix product per tile of 512 rows gives the squared distances
  |a|² + |b|² − 2 a·b of the tile's rows to all 4096 points of the second cloud.  Over the eight tiles of a cloud it keeps
  a running sum of the rows' least distances and a running minimum per column; at the cloud's last tile it stores the
  sum and the sum of the column minima.  The host then adds these over the 16 clouds, scales each by one, adds the two
  and divides by 16.  The reference forms the expanded squared distances directly, takes the two minima and the two
  sums over everything, and ends the same way.

  On the extended reals both results are the same function of the two argument arrays: a sum may be grouped by tiles
  and a minimum taken tile by tile in any order, and the contraction over the five augmented coordinates is the expanded
  distance — by distributivity, which is where the finiteness of the inputs is used (on the extended reals it fails
  at infinities).  The three programs' frames: each runs to its end without a fault and leaves its argument arrays as
  they were; the idealization rewrote nothing.
-/
import proofs.«166173_j25563645346662_2_alg».proof.Defs
import proofs.«166173_j25563645346662_2_alg».proof.Proof.Gen.Kernel
import proofs.«166173_j25563645346662_2_alg».proof.Proof.Gen.KernelIdeal
import proofs.«166173_j25563645346662_2_alg».proof.Proof.Gen.ReferenceIdeal
import proofs.«166173_j25563645346662_2_alg».proof.Proof.Gen.Pre_finite_inputs
import proofs.«166173_j25563645346662_2_alg».proof.Proof.Gen.ReferenceIdeal.Run
import proofs.«166173_j25563645346662_2_alg».proof.Proof.Gen.ReferenceIdeal.Read
import proofs.«166173_j25563645346662_2_alg».proof.Proof.KB.Frame
import proofs.«166173_j25563645346662_2_alg».proof.Proof.KI.Final
import proofs.«166173_j25563645346662_2_alg».proof.Proof.RefValue
import proofs.«166173_j25563645346662_2_alg».proof.Proof.TotalBridge
import Idealize.ShloMosaic.Adequacy
import Idealize.ShloMosaic.Init

noncomputable section

namespace Cert.Proof

open Idealize.ShloMosaic Idealize.SL.Sem

/-- The kernel as printed runs to its end, faults nowhere and leaves its two argument arrays unchanged. -/
theorem frame_k : Cert.frame_Kernel := fun m ρ _ => Cert.Kernel.Fr.frame m ρ

/-- So does its reading on the extended reals. -/
theorem frame_ki : Cert.frame_KernelIdeal := fun m ρ _ => Cert.KernelIdeal.Fr.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the chamfer value of the expanded squared distances of the argument arrays: the kernel at that of
    the augmented contraction, which for finite inputs is the expanded distance; the reference at it directly. -/
theorem algebraic : Cert.algebraic_KernelIdeal_ReferenceIdeal := by
  intro m ρ m' ρ' hpre hagree
  refine ⟨fun c => Chamfer.total (Chamfer.Dref (m ((c.tc : Thread Cert.KernelIdeal.nD Cert.KernelIdeal.τ).loc Cert.KernelIdeal.main_arg0)) (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.ChamferBridge.total_aug_eq_ref _ _ (hpre c)), (h c).2⟩)
      (Cert.KernelIdeal.Fr.kernel_run m ρ)
  · exact (θ_run Cert.ReferenceIdeal.defs _ _).mono
      (fun _ h c => ⟨by rw [(h c).1, Cert.ReferenceIdeal.Read.val_main_v20_eq, Cert.ChamferRef.ref_eq, (hagree c).1, (hagree c).2], (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
